-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S131072 : Shape := ⟨1, ![131072]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S131072x1 : Shape := ⟨2, ![131072, 1]⟩

class Facts : Prop where
  bcast_S_S16384 : S_.BroadcastsInDim S16384 (![] : Fin 0 → Fin S16384.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S16384x1024 : S_.BroadcastsInDim S16384x1024 (![] : Fin 0 → Fin S16384x1024.rank)
  reducesTo_S16384x1024_S_d0_1 : S16384x1024.ReducesTo [0, 1] S_
  h_S_ : 0 < S_.numel
  reducesTo_S131072_S_d0 : S131072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  scatter_S16384_S131072x1_S131072_n_0_0_1_wf : ScatterDims.WF S16384 S131072x1 S131072 [] [0] [0] 1
  gather_S16384_S131072x1_S131072_n_0_n_n_0_1_1_wf : GatherDims.WF S16384 S131072x1 S131072 [] [0] [] [0] [] 1 ![1]

variable [Facts]

def scatter_S16384_S131072x1_S131072_n_0_0_1 : ScatterDims S16384 S131072x1 S131072 where
  updateWindowDims := []
  insertedWindowDims := [0]
  scatterDimsToOperandDims := [0]
  indexVectorDim := 1
  wf := scatter_S16384_S131072x1_S131072_n_0_0_1_wf
def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def fn_part3 {F : FTy → Type} [FloatOps F] (main_arg4 : IVec S131072 32) (main_arg5 : IVec S131072 32) (main_v7 : FVec F S16384 .f32) (main_v15 : FVec F S16384 .f32) (main_v48 : IVec S_ 1) (main_v50 : IVec S131072 1) : IVec S_ 1 :=
  let main_c_19 : IVec S_ 32 := constantI S_ 32 16384#32
  let main_v51 : IVec S131072 32 := broadcastInDim S131072 ![] bcast_S_S131072 main_c_19
  let main_v52 : IVec S131072 32 := addi main_arg4 main_v51
  let main_v53 : IVec S131072 32 := select main_v50 main_v52 main_arg4
  let main_v54 : IVec S131072x1 32 := broadcastInDim S131072x1 ![0] bcast_S131072_S131072x1_0 main_v53
  let main_v55 : FVec F S131072 .f32 := (fun x i => Host.gather gather_S16384_S131072x1_S131072_n_0_n_n_0_1_1 x i) main_v7 main_v54
  let main_c_20 : IVec S_ 32 := constantI S_ 32 0#32
  let main_v56 : IVec S131072 32 := broadcastInDim S131072 ![] bcast_S_S131072 main_c_20
  let main_v57 : IVec S131072 1 := cmpi .slt main_arg5 main_v56
  let main_c_21 : IVec S_ 32 := constantI S_ 32 16384#32
  let main_v58 : IVec S131072 32 := broadcastInDim S131072 ![] bcast_S_S131072 main_c_21
  let main_v59 : IVec S131072 32 := addi main_arg5 main_v58
  let main_v60 : IVec S131072 32 := select main_v57 main_v59 main_arg5
  let main_v61 : IVec S131072x1 32 := broadcastInDim S131072x1 ![0] bcast_S131072_S131072x1_0 main_v60
  let main_v62 : FVec F S131072 .f32 := (fun x i => Host.gather gather_S16384_S131072x1_S131072_n_0_n_n_0_1_1 x i) main_v15 main_v61
  let main_v63 : FVec F S131072 .f32 := mulf main_v55 main_v62
  let main_cst_22 : FVec F S_ .f32 := constant S_ .f32 0x00000000#32
  let main_v64 : FVec F S131072 .f32 := broadcastInDim S131072 ![] bcast_S_S131072 main_cst_22
  let main_v65 : IVec S131072 1 := cmpf .ogt main_v63 main_v64
  let main_c_23 : IVec S_ 1 := constantI S_ 1 1#1
  let main_v66 : IVec S_ 1 := (fun x v => Host.reduce IntOp.andi x v reducesTo_S131072_S_d0 h_S_) main_v65 main_c_23
  let main_v67 : IVec S_ 1 := andi main_v48 main_v66
  main_v67

def fn_part2 {F : FTy → Type} [FloatOps F] (main_arg4 : IVec S131072 32) (main_arg5 : IVec S131072 32) (main_v7 : FVec F S16384 .f32) (main_v15 : FVec F S16384 .f32) (main_v29 : IVec S_ 1) (main_v33 : IVec S_ 1) : IVec S_ 1 :=
  let main_v34 : IVec S_ 1 := andi main_v29 main_v33
  let main_c_12 : IVec S_ 32 := constantI S_ 32 0#32
  let main_v35 : IVec S131072 32 := broadcastInDim S131072 ![] bcast_S_S131072 main_c_12
  let main_v36 : IVec S131072 1 := cmpi .sge main_arg4 main_v35
  let main_c_13 : IVec S_ 32 := constantI S_ 32 16384#32
  let main_v37 : IVec S131072 32 := broadcastInDim S131072 ![] bcast_S_S131072 main_c_13
  let main_v38 : IVec S131072 1 := cmpi .slt main_arg4 main_v37
  let main_v39 : IVec S131072 1 := andi main_v36 main_v38
  let main_c_14 : IVec S_ 1 := constantI S_ 1 1#1
  let main_v40 : IVec S_ 1 := (fun x v => Host.reduce IntOp.andi x v reducesTo_S131072_S_d0 h_S_) main_v39 main_c_14
  let main_v41 : IVec S_ 1 := andi main_v34 main_v40
  let main_c_15 : IVec S_ 32 := constantI S_ 32 0#32
  let main_v42 : IVec S131072 32 := broadcastInDim S131072 ![] bcast_S_S131072 main_c_15
  let main_v43 : IVec S131072 1 := cmpi .sge main_arg5 main_v42
  let main_c_16 : IVec S_ 32 := constantI S_ 32 16384#32
  let main_v44 : IVec S131072 32 := broadcastInDim S131072 ![] bcast_S_S131072 main_c_16
  let main_v45 : IVec S131072 1 := cmpi .slt main_arg5 main_v44
  let main_v46 : IVec S131072 1 := andi main_v43 main_v45
  let main_c_17 : IVec S_ 1 := constantI S_ 1 1#1
  let main_v47 : IVec S_ 1 := (fun x v => Host.reduce IntOp.andi x v reducesTo_S131072_S_d0 h_S_) main_v46 main_c_17
  let main_v48 : IVec S_ 1 := andi main_v41 main_v47
  let main_c_18 : IVec S_ 32 := constantI S_ 32 0#32
  let main_v49 : IVec S131072 32 := broadcastInDim S131072 ![] bcast_S_S131072 main_c_18
  let main_v50 : IVec S131072 1 := cmpi .slt main_arg4 main_v49
  fn_part3 (F := F) main_arg4 main_arg5 main_v7 main_v15 main_v48 main_v50

def fn_part1 {F : FTy → Type} [FloatOps F] (main_arg1 : FVec F S131072 .f32) (main_arg2 : FVec F S1024x1024 .f32) (main_arg3 : FVec F S1024 .f32) (main_arg4 : IVec S131072 32) (main_arg5 : IVec S131072 32) (main_v7 : FVec F S16384 .f32) (main_v15 : FVec F S16384 .f32) (main_v16 : FVec F S16384x1024 .f32) (main_cst_4 : FVec F S_ .f32) : IVec S_ 1 :=
  let main_v17 : FVec F S16384x1024 .f32 := broadcastInDim S16384x1024 ![] bcast_S_S16384x1024 main_cst_4
  let main_v18 : IVec S16384x1024 1 := cmpf .olt main_v16 main_v17
  let main_c_5 : IVec S_ 1 := constantI S_ 1 1#1
  let main_v19 : IVec S_ 1 := (fun x v => Host.reduce IntOp.andi x v reducesTo_S16384x1024_S_d0_1 h_S_) main_v18 main_c_5
  let main_v20 : FVec F S131072 .f32 := Host.absf main_arg1
  let main_cst_6 : FVec F S_ .f32 := constant S_ .f32 0x7F800000#32
  let main_v21 : FVec F S131072 .f32 := broadcastInDim S131072 ![] bcast_S_S131072 main_cst_6
  let main_v22 : IVec S131072 1 := cmpf .olt main_v20 main_v21
  let main_c_7 : IVec S_ 1 := constantI S_ 1 1#1
  let main_v23 : IVec S_ 1 := (fun x v => Host.reduce IntOp.andi x v reducesTo_S131072_S_d0 h_S_) main_v22 main_c_7
  let main_v24 : IVec S_ 1 := andi main_v19 main_v23
  let main_v25 : FVec F S1024x1024 .f32 := Host.absf main_arg2
  let main_cst_8 : FVec F S_ .f32 := constant S_ .f32 0x7F800000#32
  let main_v26 : FVec F S1024x1024 .f32 := broadcastInDim S1024x1024 ![] bcast_S_S1024x1024 main_cst_8
  let main_v27 : IVec S1024x1024 1 := cmpf .olt main_v25 main_v26
  let main_c_9 : IVec S_ 1 := constantI S_ 1 1#1
  let main_v28 : IVec S_ 1 := (fun x v => Host.reduce IntOp.andi x v reducesTo_S1024x1024_S_d0_1 h_S_) main_v27 main_c_9
  let main_v29 : IVec S_ 1 := andi main_v24 main_v28
  let main_v30 : FVec F S1024 .f32 := Host.absf main_arg3
  let main_cst_10 : FVec F S_ .f32 := constant S_ .f32 0x7F800000#32
  let main_v31 : FVec F S1024 .f32 := broadcastInDim S1024 ![] bcast_S_S1024 main_cst_10
  let main_v32 : IVec S1024 1 := cmpf .olt main_v30 main_v31
  let main_c_11 : IVec S_ 1 := constantI S_ 1 1#1
  let main_v33 : IVec S_ 1 := (fun x v => Host.reduce IntOp.andi x v reducesTo_S1024_S_d0 h_S_) main_v32 main_c_11
  fn_part2 (F := F) main_arg4 main_arg5 main_v7 main_v15 main_v29 main_v33

def fn {F : FTy → Type} [FloatOps F] (main_arg0 : FVec F S16384x1024 .f32) (main_arg1 : FVec F S131072 .f32) (main_arg2 : FVec F S1024x1024 .f32) (main_arg3 : FVec F S1024 .f32) (main_arg4 : IVec S131072 32) (main_arg5 : IVec S131072 32) : IVec S_ 1 :=
  let main_cst : FVec F S_ .f32 := constant S_ .f32 0x00000000#32
  let main_v0 : FVec F S16384 .f32 := broadcastInDim S16384 ![] bcast_S_S16384 main_cst
  let main_c : IVec S_ 32 := constantI S_ 32 0#32
  let main_v1 : IVec S131072 32 := broadcastInDim S131072 ![] bcast_S_S131072 main_c
  let main_v2 : IVec S131072 1 := cmpi .slt main_arg4 main_v1
  let main_c_0 : IVec S_ 32 := constantI S_ 32 16384#32
  let main_v3 : IVec S131072 32 := broadcastInDim S131072 ![] bcast_S_S131072 main_c_0
  let main_v4 : IVec S131072 32 := addi main_arg4 main_v3
  let main_v5 : IVec S131072 32 := select main_v2 main_v4 main_arg4
  let main_v6 : IVec S131072x1 32 := broadcastInDim S131072x1 ![0] bcast_S131072_S131072x1_0 main_v5
  let main_v7 : FVec F S16384 .f32 := (fun x i u => Host.scatterAdd scatter_S16384_S131072x1_S131072_n_0_0_1 x i u) main_v0 main_v6 main_arg1
  let main_cst_1 : FVec F S_ .f32 := constant S_ .f32 0x00000000#32
  let main_v8 : FVec F S16384 .f32 := broadcastInDim S16384 ![] bcast_S_S16384 main_cst_1
  let main_c_2 : IVec S_ 32 := constantI S_ 32 0#32
  let main_v9 : IVec S131072 32 := broadcastInDim S131072 ![] bcast_S_S131072 main_c_2
  let main_v10 : IVec S131072 1 := cmpi .slt main_arg5 main_v9
  let main_c_3 : IVec S_ 32 := constantI S_ 32 16384#32
  let main_v11 : IVec S131072 32 := broadcastInDim S131072 ![] bcast_S_S131072 main_c_3
  let main_v12 : IVec S131072 32 := addi main_arg5 main_v11
  let main_v13 : IVec S131072 32 := select main_v10 main_v12 main_arg5
  let main_v14 : IVec S131072x1 32 := broadcastInDim S131072x1 ![0] bcast_S131072_S131072x1_0 main_v13
  let main_v15 : FVec F S16384 .f32 := (fun x i u => Host.scatterAdd scatter_S16384_S131072x1_S131072_n_0_0_1 x i u) main_v8 main_v14 main_arg1
  let main_v16 : FVec F S16384x1024 .f32 := Host.absf main_arg0
  let main_cst_4 : FVec F S_ .f32 := constant S_ .f32 0x7F800000#32
  fn_part1 (F := F) main_arg1 main_arg2 main_arg3 main_arg4 main_arg5 main_v7 main_v15 main_v16 main_cst_4
-- ==== Kernel.lean ====
abbrev S16384x1024 : Shape := ⟨2, ![16384, 1024]⟩
abbrev S131072 : Shape := ⟨1, ![131072]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S131072x1 : Shape := ⟨2, ![131072, 1]⟩
abbrev S16384x16384 : Shape := ⟨2, ![16384, 16384]⟩
abbrev S131072x2 : Shape := ⟨2, ![131072, 2]⟩
abbrev S1x1024 : Shape := ⟨2, ![1, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 100
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S131072, .f32⟩
  | .hbm, ⟨2, _⟩ => ⟨S1024x1024, .f32⟩
  | .hbm, ⟨3, _⟩ => ⟨S1024, .f32⟩
  | .hbm, ⟨4, _⟩ => ⟨S131072, .i32⟩
  | .hbm, ⟨5, _⟩ => ⟨S131072, .i32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S16384, .f32⟩
  | .hbm, ⟨10, _⟩ => ⟨S131072x1, .i32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S131072x1, .i32⟩
  | .hbm, ⟨15, _⟩ => ⟨S16384, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072, .f32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S131072, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S16384, .f32⟩
  | .hbm, ⟨39, _⟩ => ⟨S131072x1, .i32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S131072x1, .i32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072, .f32⟩
  | .hbm, ⟨63, _⟩ => ⟨S131072, .f32⟩
  | .hbm, ⟨64, _⟩ => ⟨S16384, .f32⟩
  | .hbm, ⟨65, _⟩ => ⟨S_, .i32⟩
  | .hbm, ⟨66, _⟩ => ⟨S131072, .i32⟩
  | .hbm, ⟨67, _⟩ => ⟨S131072, .i1⟩
  | .hbm, ⟨68, _⟩ => ⟨S_, .i32⟩
  | .hbm, ⟨69, _⟩ => ⟨S131072, .i32⟩
  | .hbm, ⟨70, _⟩ => ⟨S131072, .i32⟩
  | .hbm, ⟨71, _⟩ => ⟨S131072, .i32⟩
  | .hbm, ⟨72, _⟩ => ⟨S131072x1, .i32⟩
  | .hbm, ⟨73, _⟩ => ⟨S131072, .f32⟩
  | .hbm, ⟨74, _⟩ => ⟨S131072, .f32⟩
  | .hbm, ⟨75, _⟩ => ⟨S_, .f32⟩
  | .hbm, ⟨76, _⟩ => ⟨S16384x16384, .f32⟩
  | .hbm, ⟨77, _⟩ => ⟨S_, .i32⟩
  | .hbm, ⟨78, _⟩ => ⟨S131072, .i32⟩
  | .hbm, ⟨79, _⟩ => ⟨S131072, .i1⟩
  | .hbm, ⟨80, _⟩ => ⟨S_, .i32⟩
  | .hbm, ⟨81, _⟩ => ⟨S131072, .i32⟩
  | .hbm, ⟨82, _⟩ => ⟨S131072, .i32⟩
  | .hbm, ⟨83, _⟩ => ⟨S131072, .i32⟩
  | .hbm, ⟨84, _⟩ => ⟨S_, .i32⟩
  | .hbm, ⟨85, _⟩ => ⟨S131072, .i32⟩
  | .hbm, ⟨86, _⟩ => ⟨S131072, .i1⟩
  | .hbm, ⟨87, _⟩ => ⟨S_, .i32⟩
  | .hbm, ⟨88, _⟩ => ⟨S131072, .i32⟩
  | .hbm, ⟨89, _⟩ => ⟨S131072, .i32⟩
  | .hbm, ⟨90, _⟩ => ⟨S131072, .i32⟩
  | .hbm, ⟨91, _⟩ => ⟨S131072x1, .i32⟩
  | .hbm, ⟨92, _⟩ => ⟨S131072x1, .i32⟩
  | .hbm, ⟨93, _⟩ => ⟨S131072x2, .i32⟩
  | .hbm, ⟨94, _⟩ => ⟨S16384x16384, .f32⟩
  | .hbm, ⟨95, _⟩ => ⟨S16384x16384, .bf16⟩
  | .hbm, ⟨96, _⟩ => ⟨S16384x1024, .bf16⟩
  | .hbm, ⟨97, _⟩ => ⟨S1024x1024, .bf16⟩
  | .hbm, ⟨98, _⟩ => ⟨S1x1024, .f32⟩
  | .hbm, ⟨99, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_c_14 : Ref sig .tc := ⟨.hbm, 77, rfl⟩
abbrev main_v51 : Ref sig .tc := ⟨.hbm, 78, rfl⟩
abbrev main_v52 : Ref sig .tc := ⟨.hbm, 79, rfl⟩
abbrev main_c_15 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_16 : Ref sig .tc := ⟨.hbm, 84, rfl⟩
abbrev main_v56 : Ref sig .tc := ⟨.hbm, 85, rfl⟩
abbrev main_v57 : Ref sig .tc := ⟨.hbm, 86, rfl⟩
abbrev main_c_17 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S131072 : S_.BroadcastsInDim S131072 (![] : Fin 0 → Fin S131072.rank)
  bcast_S_S16384 : S_.BroadcastsInDim S16384 (![] : Fin 0 → Fin S16384.rank)
  bcast_S131072_S131072x1_0 : S131072.BroadcastsInDim S131072x1 (![0] : Fin 1 → Fin S131072x1.rank)
  bcast_S_S16384x16384 : S_.BroadcastsInDim S16384x16384 (![] : Fin 0 → Fin S16384x16384.rank)
  concatenates_S131072x1_S131072x1_S131072x2_d1 : Shape.Concatenates [S131072x1, S131072x1] S131072x2 1
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S16384_S131072x1_S131072_n_0_0_1_wf : ScatterDims.WF S16384 S131072x1 S131072 [] [0] [0] 1
  gather_S16384_S131072x1_S131072_n_0_n_n_0_1_1_wf : GatherDims.WF S16384 S131072x1 S131072 [] [0] [] [0] [] 1 ![1]
  scatter_S16384x16384_S131072x2_S131072_n_01_01_1_wf : ScatterDims.WF S16384x16384 S131072x2 S131072 [] [0, 1] [0, 1] 1
  dot_S512x2048_S2048x1024_S512x1024_1_0_0_1_n_n_wf : DotDims.WF S512x2048 S2048x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x16384.size a
  hwx0_0 : ∀ i : grid0.Coords, EltTy.bits .bf16 = 32 ∨ (Rect.block (s := S16384x16384) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .bf16 = 32 ∨ (Rect.block (s := S16384x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def scatter_S16384_S131072x1_S131072_n_0_0_1 : ScatterDims S16384 S131072x1 S131072 where
  updateWindowDims := []
  insertedWindowDims := [0]
  scatterDimsToOperandDims := [0]
  indexVectorDim := 1
  wf := scatter_S16384_S131072x1_S131072_n_0_0_1_wf
def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def scatter_S16384x16384_S131072x2_S131072_n_01_01_1 : ScatterDims S16384x16384 S131072x2 S131072 where
  updateWindowDims := []
  insertedWindowDims := [0, 1]
  scatterDimsToOperandDims := [0, 1]
  indexVectorDim := 1
  wf := scatter_S16384x16384_S131072x2_S131072_n_01_01_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v65) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v68) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v69) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1024 : Shape := ⟨2, ![16384, 1024]⟩
abbrev S131072 : Shape := ⟨1, ![131072]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S131072x1 : Shape := ⟨2, ![131072, 1]⟩
abbrev S16384x1 : Shape := ⟨2, ![16384, 1]⟩
abbrev S131072x1024 : Shape := ⟨2, ![131072, 1024]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S131072, .f32⟩
  | .hbm, ⟨2, _⟩ => ⟨S1024x1024, .f32⟩
  | .hbm, ⟨3, _⟩ => ⟨S1024, .f32⟩
  | .hbm, ⟨4, _⟩ => ⟨S131072, .i32⟩
  | .hbm, ⟨5, _⟩ => ⟨S131072, .i32⟩
  | .hbm, ⟨6, _⟩ => ⟨S_, .f32⟩
  | .hbm, ⟨7, _⟩ => ⟨S131072, .f32⟩
  | .hbm, ⟨8, _⟩ => ⟨S_, .f32⟩
  | .hbm, ⟨9, _⟩ => ⟨S16384, .f32⟩
  | .hbm, ⟨10, _⟩ => ⟨S131072x1, .i32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S131072x1, .i32⟩
  | .hbm, ⟨15, _⟩ => ⟨S16384, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072, .f32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S131072, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S_, .f32⟩
  | .hbm, ⟨38, _⟩ => ⟨S16384, .f32⟩
  | .hbm, ⟨39, _⟩ => ⟨S131072x1, .i32⟩
  | .hbm, ⟨40, _⟩ => ⟨S16384, .f32⟩
  | .hbm, ⟨41, _⟩ => ⟨S_, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S131072x1, .i32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S_, .i32⟩
  | .hbm, ⟨58, _⟩ => ⟨S131072, .i32⟩
  | .hbm, ⟨59, _⟩ => ⟨S131072, .i1⟩
  | .hbm, ⟨60, _⟩ => ⟨S_, .i32⟩
  | .hbm, ⟨61, _⟩ => ⟨S131072, .i32⟩
  | .hbm, ⟨62, _⟩ => ⟨S131072, .i32⟩
  | .hbm, ⟨63, _⟩ => ⟨S131072, .i32⟩
  | .hbm, ⟨64, _⟩ => ⟨S131072x1, .i32⟩
  | .hbm, ⟨65, _⟩ => ⟨S131072x1024, .f32⟩
  | .hbm, ⟨66, _⟩ => ⟨S131072x1, .f32⟩
  | .hbm, ⟨67, _⟩ => ⟨S131072x1024, .f32⟩
  | .hbm, ⟨68, _⟩ => ⟨S131072x1024, .f32⟩
  | .hbm, ⟨69, _⟩ => ⟨S_, .f32⟩
  | .hbm, ⟨70, _⟩ => ⟨S16384x1024, .f32⟩
  | .hbm, ⟨71, _⟩ => ⟨S131072x1, .i32⟩
  | .hbm, ⟨72, _⟩ => ⟨S16384x1024, .f32⟩
  | .hbm, ⟨73, _⟩ => ⟨S16384, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_c_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call2_cst : Ref sig .tc := ⟨.hbm, 81, rfl⟩
abbrev main_call2_v0 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S16384 : S_.BroadcastsInDim S16384 (![] : Fin 0 → Fin S16384.rank)
  bcast_S131072_S131072x1_0 : S131072.BroadcastsInDim S131072x1 (![0] : Fin 1 → Fin S131072x1.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S131072x1_S131072x1024_0_1 : S131072x1.BroadcastsInDim S131072x1024 (![0, 1] : Fin 2 → Fin S131072x1024.rank)
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  scatter_S16384_S131072x1_S131072_n_0_0_1_wf : ScatterDims.WF S16384 S131072x1 S131072 [] [0] [0] 1
  gather_S16384_S131072x1_S131072_n_0_n_n_0_1_1_wf : GatherDims.WF S16384 S131072x1 S131072 [] [0] [] [0] [] 1 ![1]
  gather_S16384x1024_S131072x1_S131072x1024_1_0_n_n_0_1_11024_wf : GatherDims.WF S16384x1024 S131072x1 S131072x1024 [1] [0] [] [0] [] 1 ![1, 1024]
  scatter_S16384x1024_S131072x1_S131072x1024_1_0_0_1_wf : ScatterDims.WF S16384x1024 S131072x1 S131072x1024 [1] [0] [0] 1
  dot_S16384x1024_S1024x1024_S16384x1024_1_0_0_1_n_n_wf : DotDims.WF S16384x1024 S1024x1024 S16384x1024 [1] [0] [0] [1] [] []

variable [Facts₀]

def scatter_S16384_S131072x1_S131072_n_0_0_1 : ScatterDims S16384 S131072x1 S131072 where
  updateWindowDims := []
  insertedWindowDims := [0]
  scatterDimsToOperandDims := [0]
  indexVectorDim := 1
  wf := scatter_S16384_S131072x1_S131072_n_0_0_1_wf
def gather_S16384_S131072x1_S131072_n_0_n_n_0_1_1 : GatherDims S16384 S131072x1 S131072 where
  offsetDims := []
  collapsedSliceDims := [0]
  operandBatchingDims := []
  startIndicesBatchingDims := []
  startIndexMap := [0]
  indexVectorDim := 1
  sliceSizes := ![1]
  wf := gather_S16384_S131072x1_S131072_n_0_n_n_0_1_1_wf
def gather_S16384x1024_S131072x1_S131072x1024_1_0_n_n_0_1_11024 : GatherDims S16384x1024 S131072x1 S131072x1024 where
  offsetDims := [1]
  collapsedSliceDims := [0]
  operandBatchingDims := []
  startIndicesBatchingDims := []
  startIndexMap := [0]
  indexVectorDim := 1
  sliceSizes := ![1, 1024]
  wf := gather_S16384x1024_S131072x1_S131072x1024_1_0_n_n_0_1_11024_wf
def scatter_S16384x1024_S131072x1_S131072x1024_1_0_0_1 : ScatterDims S16384x1024 S131072x1 S131072x1024 where
  updateWindowDims := [1]
  insertedWindowDims := [0]
  scatterDimsToOperandDims := [0]
  indexVectorDim := 1
  wf := scatter_S16384x1024_S131072x1_S131072x1024_1_0_0_1_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.GraphSum.lean ====
/-
  Regrouping a sum over edges by their source node: for finitely many edges e with source s(e),
  the sum over nodes i of (the sum of a(e) over the edges with s(e) = i) times y(i) is the sum over
  all edges of a(e) * y(s(e)) — over the reals, where multiplication distributes over addition.
-/
import Mathlib

namespace Cert.GraphSum

open Finset

/-- Grouping edges by source: `∑ i, (∑ e with s e = i, a e) * y i = ∑ e, a e * y (s e)` over the reals. -/
theorem sum_group_mul {ι ε : Type*} [Fintype ι] [Fintype ε] [DecidableEq ι]
    (s : ε → ι) (a : ε → ℝ) (y : ι → ℝ) :
    ∑ i, (∑ e, if s e = i then a e else 0) * y i = ∑ e, a e * y (s e) := by
  simp_rw [Finset.sum_mul]
  rw [Finset.sum_comm]
  refine Finset.sum_congr rfl fun e _ => ?_
  simp [ite_mul]

end Cert.GraphSum
-- ==== Proof.LibFinite.lean ====
/-
  Finiteness over the extended reals, part 1: the predicate and the pointwise operations.

  A float array read at the extended reals is FINITE when every entry is the image of a real number,
  equivalently when no entry is +∞ or -∞. Sums, differences, products and maxima of reals are reals, so the
  entrywise operations keep an array finite; a finite sum of reals is a real; a constant array is finite
  when its bit pattern denotes a real. The four patterns evaluated here denote 0, 1, 20000 and a positive
  real close to 10⁻⁵.
-/
import Idealize.ShloMosaic.PureOps.Ideal.Laws
import Idealize.ShloMosaic.Lib.ValueIdx

noncomputable section

open scoped BigOperators

namespace Cert.LibFinite

open Idealize.ShloMosaic

/-- Every entry of the array is (the image of) a real number. -/
def IsReal {S : Shape} (v : S.Idx → EReal) : Prop := ∀ i, ∃ r : ℝ, v i = (r : EReal)

/-! ### One extended real -/

/-- An extended real is a real exactly when it is neither infinity. -/
theorem real_iff_ne (x : EReal) : (∃ r : ℝ, x = (r : EReal)) ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem real_of_ne {x : EReal} (ht : x ≠ ⊤) (hb : x ≠ ⊥) : ∃ r : ℝ, x = (r : EReal) :=
  (real_iff_ne x).mpr ⟨ht, hb⟩

theorem ne_top_of_real {x : EReal} (h : ∃ r : ℝ, x = (r : EReal)) : x ≠ ⊤ := ((real_iff_ne x).mp h).1

theorem ne_bot_of_real {x : EReal} (h : ∃ r : ℝ, x = (r : EReal)) : x ≠ ⊥ := ((real_iff_ne x).mp h).2

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  rcases max_choice x y with h | h <;> rw [h]
  · exact hx
  · exact hy

theorem real_zero : ∃ r : ℝ, (0 : EReal) = (r : EReal) := ⟨0, EReal.coe_zero.symm⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

/-- A finite sum of nonnegative extended reals is nonnegative. -/
theorem sum_nonneg' {ι : Type} (s : Finset ι) (f : ι → EReal) (h : ∀ i ∈ s, 0 ≤ f i) : 0 ≤ ∑ i ∈ s, f i :=
  Finset.sum_nonneg h

/-! ### Arrays -/

variable {S : Shape} {φ : FTy}

theorem IsReal.ne_top {v : S.Idx → EReal} (h : IsReal v) (i : S.Idx) : v i ≠ ⊤ := ne_top_of_real (h i)

theorem IsReal.ne_bot {v : S.Idx → EReal} (h : IsReal v) (i : S.Idx) : v i ≠ ⊥ := ne_bot_of_real (h i)

theorem isReal_of_ne {v : S.Idx → EReal} (h : ∀ i, v i ≠ ⊤ ∧ v i ≠ ⊥) : IsReal v :=
  fun i => real_of_ne (h i).1 (h i).2

theorem isReal_iff_ne (v : S.Idx → EReal) : IsReal v ↔ ∀ i, v i ≠ ⊤ ∧ v i ≠ ⊥ :=
  forall_congr' fun i => real_iff_ne (v i)

/-- An array every entry of which is an entry of a finite array is finite. -/
theorem IsReal.of_entries {T : Shape} {inp : S.Idx → EReal} {out : T.Idx → EReal} (hin : IsReal inp)
    (h : ∀ i, ∃ j, out i = inp j) : IsReal out := fun i => by
  obtain ⟨j, hj⟩ := h i
  rw [hj]
  exact hin j

theorem isReal_addf {x y : FVec Ideal S φ} (hx : IsReal x) (hy : IsReal y) : IsReal (addf x y) :=
  fun i => real_add (hx i) (hy i)

theorem isReal_subf {x y : FVec Ideal S φ} (hx : IsReal x) (hy : IsReal y) : IsReal (subf x y) :=
  fun i => real_sub (hx i) (hy i)

theorem isReal_mulf {x y : FVec Ideal S φ} (hx : IsReal x) (hy : IsReal y) : IsReal (mulf x y) :=
  fun i => real_mul (hx i) (hy i)

theorem isReal_maximumf {x y : FVec Ideal S φ} (hx : IsReal x) (hy : IsReal y) : IsReal (maximumf x y) :=
  fun i => real_max (hx i) (hy i)

/-- The entrywise maximum is above its second argument (and above its first). -/
theorem le_maximumf_right (x y : FVec Ideal S φ) (i : S.Idx) : y i ≤ maximumf x y i := le_max_right (x i) (y i)

theorem le_maximumf_left (x y : FVec Ideal S φ) (i : S.Idx) : x i ≤ maximumf x y i := le_max_left (x i) (y i)

/-- A constant array is finite when its pattern denotes a real. -/
theorem isReal_constant (S : Shape) (φ : FTy) (w : BitVec φ.bits) (h : ∃ r : ℝ, Ideal.ofBits φ w = (r : EReal)) :
    IsReal (constant (F := Ideal) S φ w) := fun _ => h

theorem constant_apply (S : Shape) (φ : FTy) (w : BitVec φ.bits) (i : S.Idx) :
    constant (F := Ideal) S φ w i = Ideal.ofBits φ w := rfl

/-! ### Four patterns -/

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_20000 : Ideal.ofBits .f32 0x469C4000#32 = ((20000 : ℝ) : EReal) := by
  simp [Ideal.ofBits, Ideal.ieee, -EReal.coe_mul]; norm_num

/-- The pattern of the float nearest 10⁻⁵ denotes a positive real. -/
theorem ofBits_eps : ∃ e : ℝ, 0 < e ∧ Ideal.ofBits .f32 0x3727C5AC#32 = (e : EReal) := by
  refine ⟨(2 ^ 23 + 2606508 : ℕ) * (2 : ℝ) ^ ((110 : ℤ) - (2 ^ (8 - 1) - 1) - 23), by positivity, ?_⟩
  simp [Ideal.ofBits, Ideal.ieee, -EReal.coe_mul]

theorem isReal_constant_zero (S : Shape) : IsReal (constant (F := Ideal) S .f32 0x00000000#32) :=
  isReal_constant S .f32 _ ⟨0, ofBits_zero⟩

theorem isReal_constant_one (S : Shape) : IsReal (constant (F := Ideal) S .f32 0x3F800000#32) :=
  isReal_constant S .f32 _ ⟨1, ofBits_one⟩

theorem isReal_constant_20000 (S : Shape) : IsReal (constant (F := Ideal) S .f32 0x469C4000#32) :=
  isReal_constant S .f32 _ ⟨20000, ofBits_20000⟩

theorem isReal_constant_eps (S : Shape) : IsReal (constant (F := Ideal) S .f32 0x3727C5AC#32) := by
  obtain ⟨e, _, he⟩ := ofBits_eps
  exact isReal_constant S .f32 _ ⟨e, he⟩

end Cert.LibFinite

end
-- ==== Proof.Spec.lean ====
/-
  The two results as explicit sums over edges and nodes, on the extended reals.

  A graph has 16384 nodes and 131072 edges; edge e goes from node s(e) to node t(e) and carries a coefficient
  cv(e); node n has an out-factor ro(n) and an in-factor ri(n); x is the [16384, 1024] feature matrix, W a
  [1024, 1024] weight and b a bias.

  * "aggregate, then scale" (refOut): row n of the aggregate is the sum over the edges e into n of
    (x(s e, ·) * ro(s e)) * cv(e), the whole row then times ri(n); the result is max(agg · W + b, 0).
  * "dense adjacency" (adj, kerOut): A(n, i) is the sum over the edges e from i to n of
    (cv(e) * ro(s e)) * ri(t e); the result is max((A · x) · W + b, 0).

  They agree when x, cv, ro, ri are finite: then multiplication distributes over the sums (adj_mul_eq).
-/
import Idealize.ShloMosaic.PureOps.Ideal.Laws
import Idealize.ShloMosaic.Lib.ValueIdx
import proofs.«117616_j77541339562223_2_alg».proof.Proof.GraphSum
import proofs.«117616_j77541339562223_2_alg».proof.Proof.LibFinite

noncomputable section

open scoped BigOperators

namespace Cert.GraphConv

open Idealize.ShloMosaic Idealize.ShloMosaic.ValueIdx Cert.LibFinite

abbrev SE : Shape := ⟨1, ![131072]⟩
abbrev SN : Shape := ⟨1, ![16384]⟩
abbrev SND : Shape := ⟨2, ![16384, 1024]⟩
abbrev SDD : Shape := ⟨2, ![1024, 1024]⟩
abbrev SD : Shape := ⟨1, ![1024]⟩
abbrev SNN : Shape := ⟨2, ![16384, 16384]⟩
abbrev S1D : Shape := ⟨2, ![1, 1024]⟩

/-- Every entry of an index list, read as a signed integer, is a node number. -/
def InRange (idx : IVec SE 32) : Prop :=
  ∀ e : Fin 131072, 0 ≤ (idx (ix1 e)).toInt ∧ (idx (ix1 e)).toInt < 16384

/-- The node entry e of an index list names (read signed, cut off into [0, 16383] so that it is total). -/
def nodeOf (idx : IVec SE 32) (e : Fin 131072) : Fin 16384 :=
  ⟨min (idx (ix1 e)).toInt.toNat 16383, by omega⟩

/-- For an index list in range the node's number is the entry itself. -/
theorem nodeOf_val {idx : IVec SE 32} (h : InRange idx) (e : Fin 131072) :
    ((nodeOf idx e).val : Int) = (idx (ix1 e)).toInt := by
  have := h e
  show ((min (idx (ix1 e)).toInt.toNat 16383 : Nat) : Int) = _
  omega

/-- Aggregate the scaled source rows at their destination, scale the row, then the dense layer and the clamp:
    the entry at row n, column k. -/
def refOutAt (x : SND.Idx → EReal) (cv : SE.Idx → EReal) (ro ri : SN.Idx → EReal) (W : SDD.Idx → EReal)
    (b : SD.Idx → EReal) (s t : Fin 131072 → Fin 16384) (n : Fin 16384) (k : Fin 1024) : EReal :=
  max ((∑ d : Fin 1024,
      ((∑ e : Fin 131072, if t e = n then (x (ix2 (s e) d) * ro (ix1 (s e))) * cv (ix1 e) else 0) * ri (ix1 n))
        * W (ix2 d k)) + b (ix1 k)) 0

/-- The same as a whole [16384, 1024] array. -/
def refOut (x : SND.Idx → EReal) (cv : SE.Idx → EReal) (ro ri : SN.Idx → EReal) (W : SDD.Idx → EReal)
    (b : SD.Idx → EReal) (s t : Fin 131072 → Fin 16384) : SND.Idx → EReal := fun j =>
  refOutAt x cv ro ri W b s t (j 0) (j 1)

theorem refOut_ix2 (x : SND.Idx → EReal) (cv : SE.Idx → EReal) (ro ri : SN.Idx → EReal) (W : SDD.Idx → EReal)
    (b : SD.Idx → EReal) (s t : Fin 131072 → Fin 16384) (n : Fin 16384) (k : Fin 1024) :
    refOut x cv ro ri W b s t (ix2 n k) = refOutAt x cv ro ri W b s t n k := rfl

/-- The dense adjacency matrix: entry (n, i) adds up the coefficients of the edges from i to n. -/
def adjAt (cv : SE.Idx → EReal) (ro ri : SN.Idx → EReal) (s t : Fin 131072 → Fin 16384) (n i : Fin 16384) : EReal :=
  ∑ e : Fin 131072, if t e = n ∧ s e = i then (cv (ix1 e) * ro (ix1 (s e))) * ri (ix1 (t e)) else 0

/-- The same as a whole [16384, 16384] array. -/
def adj (cv : SE.Idx → EReal) (ro ri : SN.Idx → EReal) (s t : Fin 131072 → Fin 16384) : SNN.Idx → EReal := fun a =>
  adjAt cv ro ri s t (a 0) (a 1)

theorem adj_ix2 (cv : SE.Idx → EReal) (ro ri : SN.Idx → EReal) (s t : Fin 131072 → Fin 16384) (n i : Fin 16384) :
    adj cv ro ri s t (ix2 n i) = adjAt cv ro ri s t n i := rfl

/-- Two dense products, the bias row and the clamp: the entry at row n, column k. -/
def kerOutAt (A : SNN.Idx → EReal) (X : SND.Idx → EReal) (W : SDD.Idx → EReal) (B : S1D.Idx → EReal)
    (n : Fin 16384) (k : Fin 1024) : EReal :=
  max ((∑ d : Fin 1024, (∑ i : Fin 16384, A (ix2 n i) * X (ix2 i d)) * W (ix2 d k)) + B (ix2 (0 : Fin 1) k)) 0

/-- The same as a whole [16384, 1024] array. -/
def kerOut (A : SNN.Idx → EReal) (X : SND.Idx → EReal) (W : SDD.Idx → EReal) (B : S1D.Idx → EReal) :
    SND.Idx → EReal := fun j => kerOutAt A X W B (j 0) (j 1)

theorem kerOut_ix2 (A : SNN.Idx → EReal) (X : SND.Idx → EReal) (W : SDD.Idx → EReal) (B : S1D.Idx → EReal)
    (n : Fin 16384) (k : Fin 1024) : kerOut A X W B (ix2 n k) = kerOutAt A X W B n k := rfl

end Cert.GraphConv

end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.LibStretch.lean ====
/-
  A vector stretched over a matrix by two `broadcast_in_dim` steps, read at an index: the vector of per-row values
  `d` (length `n`) stretched first to a column (`n × 1`) and then across `c` columns holds `d(p)` at `(p, q)`;
  the vector of per-column values `b` (length `c`) stretched first to a row (`1 × c`) and then down `n` rows holds
  `b(q)` at `(p, q)`. (An axis of extent 1 is the one a `broadcast_in_dim` repeats, so the long axis must not
  itself have extent 1.)
-/
import Idealize.ShloMosaic.Lib.Pipeline.Value
import Idealize.ShloMosaic.Lib.ValueIdx

noncomputable section

namespace Cert.LibStretch

open Idealize.ShloMosaic Idealize.ShloMosaic.ValueIdx

variable {n c : ℕ} {α : Type}

/-- A vector stretched to a column and then across the columns, read at `(p, q)`: its entry `p`. -/
theorem bcast_col_apply (hn : n ≠ 1) (d : (⟨1, ![n]⟩ : Shape).Idx → α)
    (h2 : (⟨1, ![n]⟩ : Shape).BroadcastsInDim ⟨2, ![n, 1]⟩ ![0])
    (h1 : (⟨2, ![n, 1]⟩ : Shape).BroadcastsInDim ⟨2, ![n, c]⟩ ![0, 1]) (p : Fin n) (q : Fin c) :
    broadcastInDim ⟨2, ![n, c]⟩ ![0, 1] h1 (broadcastInDim ⟨2, ![n, 1]⟩ ![0] h2 d) (ix2 p q) = d (ix1 p) := by
  rw [broadcastInDim_apply ![0, 1] h1 _ (ix2 p q) (ix2 p (0 : Fin 1)) (fun a => by
        match a with
        | ⟨0, _⟩ => exact (if_neg hn).symm
        | ⟨1, _⟩ => exact (if_pos rfl).symm),
      broadcastInDim_apply ![0] h2 d (ix2 p (0 : Fin 1)) (ix1 p) (fun a => by
        match a with
        | ⟨0, _⟩ => exact (if_neg hn).symm)]

/-- A vector stretched to a row and then down the rows, read at `(p, q)`: its entry `q`. -/
theorem bcast_row_apply (hc : c ≠ 1) (b : (⟨1, ![c]⟩ : Shape).Idx → α)
    (h4 : (⟨1, ![c]⟩ : Shape).BroadcastsInDim ⟨2, ![1, c]⟩ ![1])
    (h3 : (⟨2, ![1, c]⟩ : Shape).BroadcastsInDim ⟨2, ![n, c]⟩ ![0, 1]) (p : Fin n) (q : Fin c) :
    broadcastInDim ⟨2, ![n, c]⟩ ![0, 1] h3 (broadcastInDim ⟨2, ![1, c]⟩ ![1] h4 b) (ix2 p q) = b (ix1 q) := by
  rw [broadcastInDim_apply ![0, 1] h3 _ (ix2 p q) (ix2 (0 : Fin 1) q) (fun a => by
        match a with
        | ⟨0, _⟩ => exact (if_pos rfl).symm
        | ⟨1, _⟩ => exact (if_neg hc).symm),
      broadcastInDim_apply ![1] h4 b (ix2 (0 : Fin 1) q) (ix1 q) (fun a => by
        match a with
        | ⟨0, _⟩ => exact (if_neg hc).symm)]

end Cert.LibStretch

end
-- ==== Proof.KernelValue.lean ====
/-
  The value the idealized kernel leaves in its result array.

  The kernel computes max((A · x) · W + b, 0) for a 16384 × 16384 matrix A, a 16384 × 1024 matrix x, a 1024 × 1024
  weight W and a bias row b, on a 32 × 8 grid: row block i (512 rows) of the result is finished in eight steps
  k = 0 … 7; step k adds, to a carried 512 × 1024 block that starts at zero, the product of block (i, k) of A
  (512 × 2048) with block (k, 0) of x (2048 × 1024); after the eighth step the carried block is multiplied by W, the
  bias row is added to every row, and the clamp at 0 is taken.

  On the extended reals every product into a zero accumulator is the exact sum over the inner coordinate and the
  narrowing to the short format is the identity. So after step k the carried block holds, at (p, q), the sum over
  the first k + 1 runs of 2048 inner coordinates of A(512·i + p, ·) · x(·, q); the eight runs together are all 16384
  inner coordinates, and a sum cut into consecutive runs is the sum of the runs' sums — associativity and
  commutativity of addition only, which hold with the infinities present. Hence the entry (512·i + p, q) of the
  result is max((∑ d, (∑ j, A(512·i + p, j) · x(j, d)) · W(d, q)) + b(q), 0), and the row blocks tile the array.
-/
import proofs.«117616_j77541339562223_2_alg».proof.Proof.Gen.KernelIdeal.Value
import proofs.«117616_j77541339562223_2_alg».proof.Proof.Spec
import proofs.«117616_j77541339562223_2_alg».proof.Proof.LibBlockSum
import proofs.«117616_j77541339562223_2_alg».proof.Proof.LibMatmul
import proofs.«117616_j77541339562223_2_alg».proof.Proof.LibRecast
import proofs.«117616_j77541339562223_2_alg».proof.Proof.LibStretch
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option Elab.async false

noncomputable section

open Idealize.ShloMosaic Idealize.ShloMosaic.TcCoe Idealize.SL.Sem
open Idealize.ShloMosaic.Pipeline (Dat)
open scoped BigOperators

namespace Cert.KernelIdeal.Hand

open Cert.KernelIdeal Cert.KernelIdeal.Gen Idealize.ShloMosaic.ValueIdx

/-! ## What each case of the body leaves, as the body's arithmetic

The body at a point loads the carried block, the point's block of the adjacency matrix and the point's block of the
feature matrix, and stores carried + (adjacency block · feature block); at the first point of a row block it has
stored the zero block first, and at the last it then stores the clamp of (carried · weight + bias) into the result
block. Each store covers its whole buffer, so what a buffer ends holding is the last store's payload. -/

section Pieces

variable {F : FTy → Type} [FloatOps F]

theorem hz : (![0, 0] : Fin 2 → Nat) = fun _ => 0 := funext fun a => by fin_cases a <;> rfl

/-- First point of a row block: the carried block ends at zero + (adjacency block · feature block). -/
theorem sout_A (c : Dev nD) (i : grid0.Coords) (a2 : Memref sig .tc .vmem S512x2048 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : cond0_0 i) (hc1 : ¬cond0_1 i)
    (x0 : Vec F S512x2048 .bf16) (x1 : Vec F S2048x1024 .bf16) (x2 : Vec F S1024x1024 .bf16) (x3 : Vec F S1x1024 .f32) :
    sout0_A_0 c i a2 h2 a3 h3 a4 h4 a5 h5 a6 h6 a7 h7 hc0 hc1 x0 x1 x2 x3 = k0_pay2 k0_pay1 x0 x1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, h2.read_unread, h3.read_unread, View.ld_unit_zero (S := S512x2048) hz,
    View.ld_unit_zero (S := S2048x1024) hz]

/-- A middle point: the carried block ends at what it held + (adjacency block · feature block). -/
theorem sout_B (c : Dev nD) (i : grid0.Coords) (a2 : Memref sig .tc .vmem S512x2048 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : ¬cond0_0 i) (hc1 : ¬cond0_1 i)
    (x0 : Vec F S512x2048 .bf16) (x1 : Vec F S2048x1024 .bf16) (x2 : Vec F S1024x1024 .bf16) (x3 : Vec F S1x1024 .f32) (xs0 : Vec F S512x1024 .f32) :
    sout0_B_0 c i a2 h2 a3 h3 a4 h4 a5 h5 a6 h6 a7 h7 hc0 hc1 x0 x1 x2 x3 xs0 = k0_pay2 xs0 x0 x1 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h7.read_unread, View.ld_unit_zero (S := S512x2048) hz,
    View.ld_unit_zero (S := S2048x1024) hz, View.ld_unit_zero (S := S512x1024) hz]

/-- Last point of a row block: the result block ends at the clamp of (carried + product) · weight + bias. -/
theorem out_C (c : Dev nD) (i : grid0.Coords) (a2 : Memref sig .tc .vmem S512x2048 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : ¬cond0_0 i) (hc1 : cond0_1 i)
    (x0 : Vec F S512x2048 .bf16) (x1 : Vec F S2048x1024 .bf16) (x2 : Vec F S1024x1024 .bf16) (x3 : Vec F S1x1024 .f32) (xs0 : Vec F S512x1024 .f32) :
    out0_C_4 c i a2 h2 a3 h3 a4 h4 a5 h5 a6 h6 a7 h7 hc0 hc1 x0 x1 x2 x3 xs0 = k0_pay3 (k0_pay2 xs0 x0 x1) x2 x3 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz, View.readCov_unit_zero (S := S512x1024) _ hz]
  simp only [View.readAt_eq_ld, h2.read_unread, h3.read_unread, h4.read_unread, h5.read_unread, h7.read_unread,
    View.ld_unit_zero (S := S512x2048) hz, View.ld_unit_zero (S := S2048x1024) hz, View.ld_unit_zero (S := S512x1024) hz,
    View.ld_unit_zero (S := S1024x1024) hz, View.ld_unit_zero (S := S1x1024) hz]

/-- … and there the carried block too ends at what it held + (adjacency block · feature block). -/
theorem sout_C (c : Dev nD) (i : grid0.Coords) (a2 : Memref sig .tc .vmem S512x2048 .bf16) (h2 : a2.IsWhole)
    (a3 : Memref sig .tc .vmem S2048x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S512x1024 .f32) (h6 : a6.IsWhole)
    (a7 : Memref sig .tc .vmem S512x1024 .f32) (h7 : a7.IsWhole) (hc0 : ¬cond0_0 i) (hc1 : cond0_1 i)
    (x0 : Vec F S512x2048 .bf16) (x1 : Vec F S2048x1024 .bf16) (x2 : Vec F S1024x1024 .bf16) (x3 : Vec F S1x1024 .f32) (xs0 : Vec F S512x1024 .f32) :
    sout0_C_0 c i a2 h2 a3 h3 a4 h4 a5 h5 a6 h6 a7 h7 hc0 hc1 x0 x1 x2 x3 xs0 = k0_pay2 xs0 x0 x1 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h7.read_unread, View.ld_unit_zero (S := S512x2048) hz,
    View.ld_unit_zero (S := S2048x1024) hz, View.ld_unit_zero (S := S512x1024) hz]

end Pieces

/-! ## The body's arithmetic at an index, on the extended reals

On the extended reals the narrowing to bf16 is the identity and a product into the zero accumulator is the exact
sum over the inner coordinate. -/

section Payloads

/-- The zero block holds 0 everywhere. -/
theorem pay1_apply (p : Fin 512) (q : Fin 1024) : k0_pay1 (F := Ideal) (ix2 p q) = 0 := by
  unfold k0_pay1
  simp only [shapeCast_self]
  show Ideal.ofBits .f32 0x00000000#32 = 0
  exact Ideal.ofBits_zero_f32

/-- Row p of a 512 × 2048 block times column q of a 2048 × 1024 block. -/
def dotAt (a : FVec Ideal S512x2048 .bf16) (x : FVec Ideal S2048x1024 .bf16) (p : Fin 512) (q : Fin 1024) : EReal :=
  ∑ l : Fin 2048, a (ix2 p l) * x (ix2 l q)

/-- One accumulation step at (p, q): the carried entry plus row p of the adjacency block times column q of the
    feature block. -/
theorem pay2_apply (acc : FVec Ideal S512x1024 .f32) (a : FVec Ideal S512x2048 .bf16) (x : FVec Ideal S2048x1024 .bf16)
    (p : Fin 512) (q : Fin 1024) :
    k0_pay2 (F := Ideal) acc a x (ix2 p q) = acc (ix2 p q) + dotAt a x p q := by
  unfold k0_pay2 dotAt
  simp only [shapeCast_self]
  show acc (ix2 p q) + FloatOps.matmul dot_S512x2048_S2048x1024_S512x1024_1_0_0_1_n_n none a x
      (constant S512x1024 .f32 0x00000000#32) (ix2 p q) = _
  exact congrArg (acc (ix2 p q) + ·) (matmul_plain_zero_apply 512 2048 1024 none a x p q)

/-- The closing step at (p, q): row p of the carried block times column q of the weight, plus the bias entry q,
    clamped below at 0. -/
theorem pay3_apply (acc : FVec Ideal S512x1024 .f32) (W : FVec Ideal S1024x1024 .bf16) (b : FVec Ideal S1x1024 .f32)
    (p : Fin 512) (q : Fin 1024) :
    k0_pay3 (F := Ideal) acc W b (ix2 p q)
      = max ((∑ d : Fin 1024, acc (ix2 p d) * W (ix2 d q)) + b (ix2 (0 : Fin 1) q)) 0 := by
  have e1 : FloatOps.matmul dot_S512x1024_S1024x1024_S512x1024_1_0_0_1_n_n none
      (truncf .bf16 acc bitsLt_bf16_f32 : FVec Ideal S512x1024 .bf16) W (constant S512x1024 .f32 0x00000000#32) (ix2 p q)
        = ∑ d : Fin 1024, acc (ix2 p d) * W (ix2 d q) :=
    matmul_plain_zero_apply 512 1024 1024 none (truncf .bf16 acc bitsLt_bf16_f32 : FVec Ideal S512x1024 .bf16) W p q
  have e2 : broadcastTo S512x1024 b broadcasts_S1x1024_S512x1024 (ix2 p q) = b (ix2 (0 : Fin 1) q) :=
    broadcastTo_apply b broadcasts_S1x1024_S512x1024 (ix2 p q) (ix2 (0 : Fin 1) q) (fun a => by
      match a with
      | ⟨0, _⟩ => exact (if_pos rfl).symm
      | ⟨1, _⟩ => exact (if_neg (fun h : (1024 : ℕ) = 1 => absurd h (by decide))).symm)
  unfold k0_pay3
  simp only [shapeCast_self]
  show max (FloatOps.matmul dot_S512x1024_S1024x1024_S512x1024_1_0_0_1_n_n none
      (truncf .bf16 acc bitsLt_bf16_f32 : FVec Ideal S512x1024 .bf16) W (constant S512x1024 .f32 0x00000000#32) (ix2 p q)
      + broadcastTo S512x1024 b broadcasts_S1x1024_S512x1024 (ix2 p q)) (Ideal.ofBits .f32 0x00000000#32) = _
  rw [e1, e2, Ideal.ofBits_zero_f32]

end Payloads

/-! ## Where a block sits in its array

A block's coordinate in the array is its block index times the block size plus the coordinate inside the block.
At grid point t = 8·i + k the adjacency block is block (i, k) of 512 × 2048, the feature block is block (k, 0) of
2048 × 1024, the weight and the bias are whole, and the result block is block (i, 0) of 512 × 1024. -/

section Blocks

/-- The block indices of the five windows at every grid point. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0 :=
  (by decide +kernel : ∀ t : Fin grid0.N, _)

variable (m : (ℓ : Loc nD τ sig) → Buf (Elt Ideal) ℓ)

/-- The adjacency block at point t, entry (p, l): the matrix at row 512·(t / 8) + p, column 2048·(t % 8) + l. -/
theorem iblk0_apply (c : Dev nD) (t : Fin cfg0.N) (p : Fin 512) (l : Fin 2048) (r cc : Fin 16384)
    (hr : r.val = 512 * (t.val / 8) + p.val) (hc : cc.val = 2048 * (t.val % 8) + l.val) :
    (iblk m c 0 t : FVec Ideal S512x2048 .bf16) (ix2 p l)
      = (V m c main_v65 : Cert.GraphConv.SNN.Idx → EReal) (ix2 r cc) := by
  have e0 : win0_0.index t (0 : Fin 2) = t.val / 8 := (idx_facts t).1
  have e1 : win0_0.index t (1 : Fin 2) = t.val % 8 := (idx_facts t).2.1
  unfold iblk
  rw [View.read_apply]
  show V m c main_v65 _ = V m c main_v65 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 2048 + 1 * l.val = cc.val; rw [e1, hc]; omega

/-- The feature block at point t, entry (l, q): the matrix at row 2048·(t % 8) + l, column q. -/
theorem iblk1_apply (c : Dev nD) (t : Fin cfg0.N) (l : Fin 2048) (q : Fin 1024) (cc : Fin 16384)
    (hc : cc.val = 2048 * (t.val % 8) + l.val) :
    (iblk m c 1 t : FVec Ideal S2048x1024 .bf16) (ix2 l q)
      = (V m c main_v66 : Cert.GraphConv.SND.Idx → EReal) (ix2 cc q) := by
  have e0 : win0_1.index t (0 : Fin 2) = t.val % 8 := (idx_facts t).2.2.1
  have e1 : win0_1.index t (1 : Fin 2) = 0 := (idx_facts t).2.2.2.1
  unfold iblk
  rw [View.read_apply]
  show V m c main_v66 _ = V m c main_v66 _
  congr 1
  funext a
  apply Fin.ext
  match a with
  | ⟨0, _⟩ => show win0_1.index t (0 : Fin 2) * 2048 + 1 * l.val = cc.val; rw [e0, hc]; omega
  | ⟨1, _⟩ => show win0_1.index t (1 : Fin 2) * 1024 + 1 * q.val = q.val; rw [e1]; omega

/-- The weight block at any point is the whole weight. -/
theorem iblk2_apply (c : Dev nD) (t : Fin cfg0.N) (d : Fin 1024) (q : Fin 1024) :
    (iblk m c 2 t : FVec Ideal S1024x1024 .bf16) (ix2 d q)
      = (V m c main_v67 : Cert.GraphConv.SDD.Idx → EReal) (ix2 d q) := by
  have e0 : win0_2.index t (0 : Fin 2) = 0 := (idx_facts t).2.2.2.2.1
  have e1 : win0_2.index t (1 : Fin 2) = 0 := (idx_facts t).2.2.2.2.2.1
  unfold iblk
  rw [View.read_apply]
  show V m c main_v67 _ = V m c main_v67 _
  congr 1
  funext a
  apply Fin.ext
  match a with
  | ⟨0, _⟩ => show win0_2.index t (0 : Fin 2) * 1024 + 1 * d.val = d.val; rw [e0]; omega
  | ⟨1, _⟩ => show win0_2.index t (1 : Fin 2) * 1024 + 1 * q.val = q.val; rw [e1]; omega

/-- The bias block at any point is the whole bias row. -/
theorem iblk3_apply (c : Dev nD) (t : Fin cfg0.N) (q : Fin 1024) :
    (iblk m c 3 t : FVec Ideal S1x1024 .f32) (ix2 (0 : Fin 1) q)
      = (V m c main_v68 : Cert.GraphConv.S1D.Idx → EReal) (ix2 (0 : Fin 1) q) := by
  have e0 : win0_3.index t (0 : Fin 2) = 0 := (idx_facts t).2.2.2.2.2.2.1
  have e1 : win0_3.index t (1 : Fin 2) = 0 := (idx_facts t).2.2.2.2.2.2.2.1
  unfold iblk
  rw [View.read_apply]
  show V m c main_v68 _ = V m c main_v68 _
  congr 1
  funext a
  apply Fin.ext
  match a with
  | ⟨0, _⟩ => show win0_3.index t (0 : Fin 2) * 1 + 1 * 0 = 0; rw [e0]
  | ⟨1, _⟩ => show win0_3.index t (1 : Fin 2) * 1024 + 1 * q.val = q.val; rw [e1]; omega

end Blocks

/-! ## The carried block after each point, and the result block

Row r of the adjacency matrix times column q of the feature matrix is a sum over all 16384 inner coordinates; the
kernel adds it up as eight sums over 2048 consecutive coordinates each, from zero, in order. After the point with
number n (n % 8 + 1 of the eight done) the carried block holds the first n % 8 + 1 of them; after the eighth it
holds the whole inner sum, by associativity and commutativity of addition alone. -/

section Fold

open Cert.GraphConv

/-- Inner coordinate l of the k-th run of 2048. -/
def colAt (k : Fin 8) (l : Fin 2048) : Fin 16384 := ⟨k.val * 2048 + l.val, by omega⟩

/-- Row r of A times column q of X over the k-th run of 2048 inner coordinates only (0 past the eighth run). -/
def blockDot (A : SNN.Idx → EReal) (X : SND.Idx → EReal) (r : Fin 16384) (q : Fin 1024) (k : ℕ) : EReal :=
  if hk : k < 8 then ∑ l : Fin 2048, A (ix2 r (colAt ⟨k, hk⟩ l)) * X (ix2 (colAt ⟨k, hk⟩ l) q) else 0

/-- The eight runs' sums add up to the whole inner sum. -/
theorem sum_blockDot (A : SNN.Idx → EReal) (X : SND.Idx → EReal) (r : Fin 16384) (q : Fin 1024) :
    ∑ k ∈ Finset.range 8, blockDot A X r q k = ∑ i : Fin 16384, A (ix2 r i) * X (ix2 i q) := by
  symm
  refine BlockSum.sum_blocks_range 8 2048 (fun i : Fin (8 * 2048) => A (ix2 r i) * X (ix2 i q)) (blockDot A X r q)
    (fun k => ?_)
  unfold blockDot
  rw [dif_pos k.isLt]
  rfl

variable (m : (ℓ : Loc nD τ sig) → Buf (Elt Ideal) ℓ)

/-- The product of the two blocks at point t, at (p, q), is the (t % 8)-th run's sum for row 512·(t / 8) + p. -/
theorem blockProd (c : Dev nD) (t : Fin cfg0.N) (p : Fin 512) (q : Fin 1024) (r : Fin 16384)
    (hr : r.val = 512 * (t.val / 8) + p.val) :
    dotAt (iblk m c 0 t) (iblk m c 1 t) p q = blockDot (V m c main_v65) (V m c main_v66) r q (t.val % 8) := by
  have h8 : t.val % 8 < 8 := Nat.mod_lt _ (by decide)
  unfold blockDot dotAt
  rw [dif_pos h8]
  refine Finset.sum_congr rfl fun l _ => ?_
  rw [iblk0_apply m c t p l r (colAt ⟨t.val % 8, h8⟩ l) hr (by show t.val % 8 * 2048 + l.val = _; omega),
    iblk1_apply m c t l q (colAt ⟨t.val % 8, h8⟩ l) (by show t.val % 8 * 2048 + l.val = _; omega)]

/-- The carried block after a first point of a row block, at (p, q): the two blocks' product. -/
theorem scr_A (c : Dev nD) (n : ℕ) (h : n < cfg0.N) (h0 : n % 8 = 0) (h1 : ¬n % 8 = 7) (p : Fin 512) (q : Fin 1024) :
    ((outsAt0 m c n h).2 : FVec Ideal S512x1024 .f32) (ix2 p q) = dotAt (iblk m c 0 ⟨n, h⟩) (iblk m c 1 ⟨n, h⟩) p q := by
  have e : ((outsAt0 m c n h).2 : FVec Ideal S512x1024 .f32)
      = k0_pay2 (F := Ideal) (k0_pay1 (F := Ideal)) (iblk m c 0 ⟨n, h⟩) (iblk m c 1 ⟨n, h⟩) := by
    rw [outsAt0_A m c ⟨n, h⟩ h0 h1]
    dsimp only
    exact sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)
  rw [e]
  refine (pay2_apply (k0_pay1 (F := Ideal)) (iblk m c 0 ⟨n, h⟩) (iblk m c 1 ⟨n, h⟩) p q).trans ?_
  rw [pay1_apply, zero_add]

/-- The carried block after a middle point, at (p, q): what the point before left plus the two blocks' product. -/
theorem scr_B (c : Dev nD) (n : ℕ) (h : n + 1 < cfg0.N) (h0 : ¬(n + 1) % 8 = 0) (h1 : ¬(n + 1) % 8 = 7)
    (p : Fin 512) (q : Fin 1024) :
    ((outsAt0 m c (n + 1) h).2 : FVec Ideal S512x1024 .f32) (ix2 p q)
      = ((outsAt0 m c n (Nat.lt_of_succ_lt h)).2 : FVec Ideal S512x1024 .f32) (ix2 p q)
        + dotAt (iblk m c 0 ⟨n + 1, h⟩) (iblk m c 1 ⟨n + 1, h⟩) p q := by
  have e : ((outsAt0 m c (n + 1) h).2 : FVec Ideal S512x1024 .f32)
      = k0_pay2 (F := Ideal) (outsAt0 m c n (Nat.lt_of_succ_lt h)).2 (iblk m c 0 ⟨n + 1, h⟩) (iblk m c 1 ⟨n + 1, h⟩) := by
    rw [outsAt0_B m c ⟨n + 1, h⟩ h0 h1]
    dsimp only
    exact sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2
  rw [e]
  exact pay2_apply (outsAt0 m c n (Nat.lt_of_succ_lt h)).2 (iblk m c 0 ⟨n + 1, h⟩) (iblk m c 1 ⟨n + 1, h⟩) p q

/-- The same after a last point of a row block. -/
theorem scr_C (c : Dev nD) (n : ℕ) (h : n + 1 < cfg0.N) (h0 : ¬(n + 1) % 8 = 0) (h1 : (n + 1) % 8 = 7)
    (p : Fin 512) (q : Fin 1024) :
    ((outsAt0 m c (n + 1) h).2 : FVec Ideal S512x1024 .f32) (ix2 p q)
      = ((outsAt0 m c n (Nat.lt_of_succ_lt h)).2 : FVec Ideal S512x1024 .f32) (ix2 p q)
        + dotAt (iblk m c 0 ⟨n + 1, h⟩) (iblk m c 1 ⟨n + 1, h⟩) p q := by
  have e : ((outsAt0 m c (n + 1) h).2 : FVec Ideal S512x1024 .f32)
      = k0_pay2 (F := Ideal) (outsAt0 m c n (Nat.lt_of_succ_lt h)).2 (iblk m c 0 ⟨n + 1, h⟩) (iblk m c 1 ⟨n + 1, h⟩) := by
    rw [outsAt0_C m c ⟨n + 1, h⟩ h0 h1]
    dsimp only
    exact sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  rw [e]
  exact pay2_apply (outsAt0 m c n (Nat.lt_of_succ_lt h)).2 (iblk m c 0 ⟨n + 1, h⟩) (iblk m c 1 ⟨n + 1, h⟩) p q

/-- The result block after a last point of a row block: the closing step applied to the carried block it leaves. -/
theorem res_C (c : Dev nD) (n : ℕ) (h : n + 1 < cfg0.N) (h0 : ¬(n + 1) % 8 = 0) (h1 : (n + 1) % 8 = 7) :
    ((outsAt0 m c (n + 1) h).1 : FVec Ideal S512x1024 .f32)
      = k0_pay3 (F := Ideal) (outsAt0 m c (n + 1) h).2 (iblk m c 2 ⟨n + 1, h⟩) (iblk m c 3 ⟨n + 1, h⟩) := by
  have e2 : ((outsAt0 m c (n + 1) h).2 : FVec Ideal S512x1024 .f32)
      = k0_pay2 (F := Ideal) (outsAt0 m c n (Nat.lt_of_succ_lt h)).2 (iblk m c 0 ⟨n + 1, h⟩) (iblk m c 1 ⟨n + 1, h⟩) := by
    rw [outsAt0_C m c ⟨n + 1, h⟩ h0 h1]
    dsimp only
    exact sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  have e4 : ((outsAt0 m c (n + 1) h).1 : FVec Ideal S512x1024 .f32)
      = k0_pay3 (F := Ideal) (k0_pay2 (F := Ideal) (outsAt0 m c n (Nat.lt_of_succ_lt h)).2 (iblk m c 0 ⟨n + 1, h⟩)
          (iblk m c 1 ⟨n + 1, h⟩)) (iblk m c 2 ⟨n + 1, h⟩) (iblk m c 3 ⟨n + 1, h⟩) := by
    rw [outsAt0_C m c ⟨n + 1, h⟩ h0 h1]
    dsimp only
    exact out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  rw [e4, e2]

/-- After point n the carried block holds, at (p, q), the first n % 8 + 1 runs' sums of row 512·(n / 8) + p. -/
theorem carried_apply (c : Dev nD) : ∀ (n : ℕ) (h : n < cfg0.N) (p : Fin 512) (q : Fin 1024) (r : Fin 16384),
    r.val = 512 * (n / 8) + p.val →
    ((outsAt0 m c n h).2 : FVec Ideal S512x1024 .f32) (ix2 p q)
      = ∑ k ∈ Finset.range (n % 8 + 1), blockDot (V m c main_v65) (V m c main_v66) r q k
  | 0, h, p, q, r, hr => by
    rw [scr_A m c 0 h (Nat.zero_mod 8) (by decide) p q, blockProd m c ⟨0, h⟩ p q r hr]
    exact (Finset.sum_range_one (blockDot (V m c main_v65) (V m c main_v66) r q)).symm
  | n + 1, h, p, q, r, hr => by
    by_cases h0 : (n + 1) % 8 = 0
    · have h1 : ¬(n + 1) % 8 = 7 := by omega
      rw [scr_A m c (n + 1) h h0 h1 p q, blockProd m c ⟨n + 1, h⟩ p q r hr]
      show blockDot _ _ r q ((n + 1) % 8) = _
      rw [h0]
      exact (Finset.sum_range_one (blockDot (V m c main_v65) (V m c main_v66) r q)).symm
    · have hr' : r.val = 512 * (n / 8) + p.val := by omega
      have hs : (n + 1) % 8 = n % 8 + 1 := by omega
      have ih := carried_apply c n (Nat.lt_of_succ_lt h) p q r hr'
      by_cases h1 : (n + 1) % 8 = 7
      · rw [scr_C m c n h h0 h1 p q, ih, blockProd m c ⟨n + 1, h⟩ p q r hr]
        show _ + blockDot _ _ r q ((n + 1) % 8) = _
        rw [hs, Finset.sum_range_succ _ (n % 8 + 1)]
      · rw [scr_B m c n h h0 h1 p q, ih, blockProd m c ⟨n + 1, h⟩ p q r hr]
        show _ + blockDot _ _ r q ((n + 1) % 8) = _
        rw [hs, Finset.sum_range_succ _ (n % 8 + 1)]

/-- After a last point of a row block the result block holds, at (p, q), the specification's entry at row
    512·(n / 8) + p, column q. -/
theorem result_apply (c : Dev nD) (n : ℕ) (h : n < cfg0.N) (h7 : n % 8 = 7) (p : Fin 512) (q : Fin 1024) (r : Fin 16384)
    (hr : r.val = 512 * (n / 8) + p.val) :
    ((outsAt0 m c n h).1 : FVec Ideal S512x1024 .f32) (ix2 p q)
      = kerOutAt (V m c main_v65) (V m c main_v66) (V m c main_v67) (V m c main_v68) r q := by
  obtain ⟨n, rfl⟩ : ∃ n', n = n' + 1 := ⟨n - 1, by omega⟩
  have h0 : ¬(n + 1) % 8 = 0 := by omega
  rw [res_C m c n h h0 h7]
  refine (pay3_apply (outsAt0 m c (n + 1) h).2 (iblk m c 2 ⟨n + 1, h⟩) (iblk m c 3 ⟨n + 1, h⟩) p q).trans ?_
  rw [iblk3_apply m c ⟨n + 1, h⟩ q]
  unfold kerOutAt
  refine congrArg (fun s => max (s + (V m c main_v68 : S1D.Idx → EReal) (ix2 (0 : Fin 1) q)) 0)
    (Finset.sum_congr rfl fun d _ => ?_)
  have e := carried_apply m c (n + 1) h p d r hr
  rw [h7] at e
  rw [e, iblk2_apply m c ⟨n + 1, h⟩ d q]
  exact congrArg (· * (V m c main_v67 : SDD.Idx → EReal) (ix2 d q))
    (sum_blockDot (V m c main_v65) (V m c main_v66) r d)

end Fold

/-! ## From the blocks to the array

The result block is written back at the last point of each row block; the point 8·(n / 512) + 7 writes the block
that holds row n, so the blocks written back cover the array, and each holds the specification's entries. -/

section Array

open Cert.GraphConv

variable (m : (ℓ : Loc nD τ sig) → Buf (Elt Ideal) ℓ)

/-- The result block after a last point of a row block is its block of the specification's array: entry (p, q) of
    block (t / 8, 0) is entry (512·(t / 8) + p, q). -/
theorem res_block (c : Dev nD) (t : Fin cfg0.N) (h7 : t.val % 8 = 7) :
    ((outsAt0 m c t.val t.isLt).1 : FVec Ideal S512x1024 .f32)
      = fun y : S512x1024.Idx => kerOut (V m c main_v65) (V m c main_v66) (V m c main_v67) (V m c main_v68)
          (((cfg0.win 4).blk t).view.emb y) := by
  have e0 : win0_4.index t (0 : Fin 2) = t.val / 8 := (idx_facts t).2.2.2.2.2.2.2.2.1
  have e1 : win0_4.index t (1 : Fin 2) = 0 := (idx_facts t).2.2.2.2.2.2.2.2.2
  funext y
  obtain ⟨p, q, rfl⟩ : ∃ (p : Fin 512) (q : Fin 1024), y = ix2 p q := ⟨y 0, y 1, eq_ix2 y⟩
  show ((outsAt0 m c t.val t.isLt).1 : FVec Ideal S512x1024 .f32) (ix2 p q)
    = kerOutAt (V m c main_v65) (V m c main_v66) (V m c main_v67) (V m c main_v68)
        ((((cfg0.win 4).blk t).view.emb (ix2 p q)) 0) ((((cfg0.win 4).blk t).view.emb (ix2 p q)) 1)
  have hq : (((cfg0.win 4).blk t).view.emb (ix2 p q)) 1 = q :=
    Fin.ext (by show win0_4.index t (1 : Fin 2) * 1024 + 1 * q.val = q.val; rw [e1]; omega)
  rw [hq]
  exact result_apply m c t.val t.isLt h7 p q _
    (by show win0_4.index t (0 : Fin 2) * 512 + 1 * p.val = 512 * (t.val / 8) + p.val; rw [e0]; omega)

/-- What a point that writes back writes is its block of the specification's array. -/
theorem flushed_eq (c : Dev nD) (t : Fin cfg0.N) (hf : (cfg0.win 4).flush t = true) :
    (dats m 0 c).flushed 4 t = ((cfg0.win 4).blk t).view.read (Elt Ideal)
      (kerOut (V m c main_v65) (V m c main_v66) (V m c main_v67) (V m c main_v68)) := by
  rw [Value.flushed4, res_block m c t ((flush0_4 t).mp hf)]
  rfl

/-- An index of the array is in point t's block iff each coordinate is in the block's range on its axis. -/
theorem mem_blk (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v69).slice (win0_4.rect t)).set ↔ _
  rw [View.set_slice_whole, Rect.mem_set_unit]
  exact Iff.rfl

/-- Every entry of the array is written back by the last point of its row block. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 256 := N_0
  have ht : 8 * ((i 0).val / 512) + 7 < cfg0.N := by rw [hN]; omega
  refine ⟨⟨8 * ((i 0).val / 512) + 7, ht⟩, (flush0_4 _).mpr (by show (8 * ((i 0).val / 512) + 7) % 8 = 7; omega), ?_⟩
  have e0 : win0_4.index ⟨8 * ((i 0).val / 512) + 7, ht⟩ (0 : Fin 2) = (8 * ((i 0).val / 512) + 7) / 8 :=
    (idx_facts _).2.2.2.2.2.2.2.2.1
  have e1 : win0_4.index ⟨8 * ((i 0).val / 512) + 7, ht⟩ (1 : Fin 2) = 0 := (idx_facts _).2.2.2.2.2.2.2.2.2
  rw [mem_blk]
  intro a
  match a with
  | ⟨0, _⟩ =>
    show win0_4.index ⟨8 * ((i 0).val / 512) + 7, ht⟩ (0 : Fin 2) * 512 ≤ (i 0).val
      ∧ (i 0).val < win0_4.index ⟨8 * ((i 0).val / 512) + 7, ht⟩ (0 : Fin 2) * 512 + 512
    rw [e0]; omega
  | ⟨1, _⟩ =>
    show win0_4.index ⟨8 * ((i 0).val / 512) + 7, ht⟩ (1 : Fin 2) * 1024 ≤ (i 1).val
      ∧ (i 1).val < win0_4.index ⟨8 * ((i 0).val / 512) + 7, ht⟩ (1 : Fin 2) * 1024 + 1024
    rw [e1]; omega

/-- So the result array ends holding the specification's array. -/
theorem final (c : Dev nD) : (dats m 0 c).arrAt 4 cfg0.N
    = kerOut (V m c main_v65) (V m c main_v66) (V m c main_v67) (V m c main_v68) :=
  (dats m 0 c).arrAt_eq_of_cover 4 (kerOut (V m c main_v65) (V m c main_v66) (V m c main_v67) (V m c main_v68))
    (flushed_eq m c) cover

/-- The run of the idealized kernel: the result array at the specification's array of the four arrays the region
    finds, the six arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v69)
        = kerOut (V m c main_v65) (V m c main_v66) (V m c main_v67) (V m c main_v68)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Array

end Cert.KernelIdeal.Hand

end
-- ==== Proof.LibFiniteMisc.lean ====
/-
  Finiteness over the extended reals, part 6: integers read as floats, and comparisons.

  An integer word converted to a float is that integer, a real. A strict comparison of extended reals answers 1
  exactly when it holds, so a selection guarded by a comparison that holds reads its first branch.
-/
import proofs.«117616_j77541339562223_2_alg».proof.Proof.LibFinite

noncomputable section

namespace Cert.LibFinite

open Idealize.ShloMosaic

variable {S : Shape} {φ : FTy} {w : Nat}

/-- A signed integer word read as a float, at an index. -/
theorem sitofp_apply (x : IVec S w) (i : S.Idx) :
    sitofp (F := Ideal) φ x i = (((x i).toInt : ℝ) : EReal) := rfl

/-- An array of signed integer words read as floats is finite. -/
theorem isReal_sitofp (x : IVec S w) : IsReal (sitofp (F := Ideal) φ x) := fun i => ⟨((x i).toInt : ℝ), rfl⟩

/-- An unsigned integer word read as a float, at an index. -/
theorem uitofp_apply (x : IVec S w) (i : S.Idx) :
    uitofp (F := Ideal) φ x i = (((x i).toNat : ℝ) : EReal) := rfl

theorem isReal_uitofp (x : IVec S w) : IsReal (uitofp (F := Ideal) φ x) := fun i => ⟨((x i).toNat : ℝ), rfl⟩

/-- "Greater than" answers 1 when it holds, 0 when it does not. -/
theorem cmp_ogt_of_lt {a b : EReal} (h : b < a) : Ideal.cmp .ogt a b = 1#1 := by
  simp [Ideal.cmp, h]

theorem cmp_ogt_of_not_lt {a b : EReal} (h : ¬ b < a) : Ideal.cmp .ogt a b = 0#1 := by
  simp [Ideal.cmp, h]

/-- "Less than" answers 1 when it holds, 0 when it does not. -/
theorem cmp_olt_of_lt {a b : EReal} (h : a < b) : Ideal.cmp .olt a b = 1#1 := by
  simp [Ideal.cmp, h]

theorem cmp_olt_of_not_lt {a b : EReal} (h : ¬ a < b) : Ideal.cmp .olt a b = 0#1 := by
  simp [Ideal.cmp, h]

/-- An entrywise comparison at an index, at the extended reals. -/
theorem cmpf_apply_ideal (p : CmpFPredicate) (a b : FVec Ideal S φ) (i : S.Idx) :
    cmpf p a b i = Ideal.cmp p (a i) (b i) := rfl

/-- A selection at an index where the condition is 1 reads the first branch; where it is 0, the second. -/
theorem select_apply_one {α : Type} (c : IVec S 1) (a b : S.Idx → α) (i : S.Idx) (h : c i = 1#1) :
    select c a b i = a i := by
  show (if c i = 1 then a i else b i) = a i
  exact if_pos h

theorem select_apply_zero {α : Type} (c : IVec S 1) (a b : S.Idx → α) (i : S.Idx) (h : c i = 0#1) :
    select c a b i = b i := by
  show (if c i = 1 then a i else b i) = b i
  exact if_neg (by rw [h]; decide)

end Cert.LibFinite

end
-- ==== Proof.LibFiniteLayout.lean ====
/-
  Finiteness over the extended reals, part 2: operations that only move entries.

  A broadcast, a transpose, a reshape, a slice, a concatenation, a gather and a selection compute nothing:
  every entry of the result IS an entry of (one of) the operands. So the result of each is finite whenever
  the operands are, whatever the dimension numbers.
-/
import proofs.«117616_j77541339562223_2_alg».proof.Proof.LibFinite
import Idealize.ShloMosaic.PureOps.ShapeOps

noncomputable section

namespace Cert.LibFinite

open Idealize.ShloMosaic

variable {S T : Shape}

theorem isReal_broadcast (T : Shape) {x : EReal} (hx : ∃ r : ℝ, x = (r : EReal)) : IsReal (broadcast T x) :=
  fun _ => hx

theorem isReal_broadcastInDim (T : Shape) (dims : Fin S.rank → Fin T.rank) (h : S.BroadcastsInDim T dims)
    {x : S.Idx → EReal} (hx : IsReal x) : IsReal (broadcastInDim T dims h x) :=
  fun _ => hx _

theorem isReal_transpose (T : Shape) (perm : List (Fin S.rank)) {x : S.Idx → EReal} (h : S.Transposes perm T)
    (hx : IsReal x) : IsReal (transpose T perm x h) :=
  fun _ => hx _

theorem isReal_shapeCast (T : Shape) {x : S.Idx → EReal} (h : S.ShapeCasts T) (hx : IsReal x) :
    IsReal (shapeCast T x h) :=
  fun _ => hx _

theorem isReal_extractStridedSlice (T : Shape) (off : Fin S.rank → Nat) {x : S.Idx → EReal} (h : S.Slices off T)
    (hx : IsReal x) : IsReal (extractStridedSlice T off x h) :=
  fun _ => hx _

/-- A gather reads, at every result index, one entry of its operand (whatever the start indices hold). -/
theorem isReal_gather {Si : Shape} {w : Nat} (d : GatherDims S Si T) {x : S.Idx → EReal} (idx : IVec Si w)
    (hx : IsReal x) : IsReal (Host.gather d x idx) :=
  fun _ => hx _

/-- A concatenation reads, at every result index, one entry of one of its pieces. -/
theorem isReal_concatenate (T : Shape) (a : Fin T.rank) (xs : List ((s : Shape) × (s.Idx → EReal)))
    (h : Shape.Concatenates (xs.map (·.1)) T a) (hx : ∀ p ∈ xs, IsReal p.2) : IsReal (concatenate T a xs h) :=
  fun _ => hx _ (List.getElem_mem _) _

/-- The concatenation of two arrays. -/
theorem isReal_concatenate_pair {S₁ S₂ : Shape} (T : Shape) (a : Fin T.rank) {x₁ : S₁.Idx → EReal} {x₂ : S₂.Idx → EReal}
    (h : Shape.Concatenates [S₁, S₂] T a) (h₁ : IsReal x₁) (h₂ : IsReal x₂) :
    IsReal (concatenate T a [(⟨S₁, x₁⟩ : (s : Shape) × (s.Idx → EReal)), ⟨S₂, x₂⟩] h) :=
  isReal_concatenate T a [(⟨S₁, x₁⟩ : (s : Shape) × (s.Idx → EReal)), ⟨S₂, x₂⟩] h fun p hp => by
    rcases List.mem_cons.mp hp with rfl | hp
    · exact h₁
    · rcases List.mem_cons.mp hp with rfl | hp
      · exact h₂
      · exact absurd hp (List.not_mem_nil)

/-- An entrywise selection between two finite arrays is finite. -/
theorem isReal_select (c : IVec S 1) {a b : S.Idx → EReal} (ha : IsReal a) (hb : IsReal b) : IsReal (select c a b) :=
  fun i => by
    show ∃ r : ℝ, (if c i = 1 then a i else b i) = (r : EReal)
    split
    · exact ha i
    · exact hb i

end Cert.LibFinite

end
-- ==== Proof.LibFiniteDiv.lean ====
/-
  Finiteness over the extended reals, part 4: quotients and reciprocal square roots.

  A quotient of extended reals is the real quotient when the dividend is a real and the divisor a NONZERO real;
  a reciprocal square root is the real one when its argument is a POSITIVE real. So beside "every entry is a real"
  three sharper facts about an array are carried: every entry a nonzero real, a positive real, a nonnegative real.
  Each survives a broadcast (the result's entries are the operand's), the constants 1, 20000 and the float nearest
  10⁻⁵ are positive, a maximum with a positive array is positive, and a nonnegative array plus a positive one is
  positive.
-/
import proofs.«117616_j77541339562223_2_alg».proof.Proof.LibFiniteLayout

noncomputable section

open scoped BigOperators

namespace Cert.LibFinite

open Idealize.ShloMosaic

/-- Every entry of the array is a nonzero real. -/
def IsNonzeroReal {S : Shape} (v : S.Idx → EReal) : Prop := ∀ i, ∃ r : ℝ, r ≠ 0 ∧ v i = (r : EReal)

/-- Every entry of the array is a positive real. -/
def IsPosReal {S : Shape} (v : S.Idx → EReal) : Prop := ∀ i, ∃ r : ℝ, 0 < r ∧ v i = (r : EReal)

/-- Every entry of the array is a nonnegative real. -/
def IsNonnegReal {S : Shape} (v : S.Idx → EReal) : Prop := ∀ i, ∃ r : ℝ, 0 ≤ r ∧ v i = (r : EReal)

variable {S T : Shape} {φ : FTy}

theorem IsPosReal.nonzero {v : S.Idx → EReal} (h : IsPosReal v) : IsNonzeroReal v := fun i => by
  obtain ⟨r, hr, e⟩ := h i
  exact ⟨r, hr.ne', e⟩

theorem IsPosReal.nonneg {v : S.Idx → EReal} (h : IsPosReal v) : IsNonnegReal v := fun i => by
  obtain ⟨r, hr, e⟩ := h i
  exact ⟨r, hr.le, e⟩

theorem IsNonzeroReal.isReal {v : S.Idx → EReal} (h : IsNonzeroReal v) : IsReal v := fun i => by
  obtain ⟨r, _, e⟩ := h i
  exact ⟨r, e⟩

theorem IsPosReal.isReal {v : S.Idx → EReal} (h : IsPosReal v) : IsReal v := h.nonzero.isReal

theorem IsNonnegReal.isReal {v : S.Idx → EReal} (h : IsNonnegReal v) : IsReal v := fun i => by
  obtain ⟨r, _, e⟩ := h i
  exact ⟨r, e⟩

/-- A real array whose entries are all at least a positive real is positive. -/
theorem isPosReal_of_le {v : S.Idx → EReal} (hv : IsReal v) {c : ℝ} (hc : 0 < c) (h : ∀ i, (c : EReal) ≤ v i) :
    IsPosReal v := fun i => by
  obtain ⟨r, e⟩ := hv i
  refine ⟨r, ?_, e⟩
  have := h i
  rw [e, EReal.coe_le_coe_iff] at this
  exact lt_of_lt_of_le hc this

/-- A real array whose entries are all at least 0 is nonnegative. -/
theorem isNonnegReal_of_le {v : S.Idx → EReal} (hv : IsReal v) (h : ∀ i, (0 : EReal) ≤ v i) : IsNonnegReal v :=
  fun i => by
    obtain ⟨r, e⟩ := hv i
    refine ⟨r, ?_, e⟩
    have := h i
    rw [e] at this
    exact EReal.coe_nonneg.mp this

theorem IsNonnegReal.le {v : S.Idx → EReal} (h : IsNonnegReal v) (i : S.Idx) : (0 : EReal) ≤ v i := by
  obtain ⟨r, hr, e⟩ := h i
  rw [e]
  exact EReal.coe_nonneg.mpr hr

/-! ### Broadcasts keep the three facts -/

theorem isNonzeroReal_broadcastInDim (T : Shape) (dims : Fin S.rank → Fin T.rank) (h : S.BroadcastsInDim T dims)
    {x : S.Idx → EReal} (hx : IsNonzeroReal x) : IsNonzeroReal (broadcastInDim T dims h x) :=
  fun _ => hx _

theorem isPosReal_broadcastInDim (T : Shape) (dims : Fin S.rank → Fin T.rank) (h : S.BroadcastsInDim T dims)
    {x : S.Idx → EReal} (hx : IsPosReal x) : IsPosReal (broadcastInDim T dims h x) :=
  fun _ => hx _

theorem isNonnegReal_broadcastInDim (T : Shape) (dims : Fin S.rank → Fin T.rank) (h : S.BroadcastsInDim T dims)
    {x : S.Idx → EReal} (hx : IsNonnegReal x) : IsNonnegReal (broadcastInDim T dims h x) :=
  fun _ => hx _

/-! ### Positive constants -/

theorem isPosReal_constant (S : Shape) (φ : FTy) (w : BitVec φ.bits)
    (h : ∃ r : ℝ, 0 < r ∧ Ideal.ofBits φ w = (r : EReal)) : IsPosReal (constant (F := Ideal) S φ w) := fun _ => h

theorem isPosReal_constant_one (S : Shape) : IsPosReal (constant (F := Ideal) S .f32 0x3F800000#32) :=
  isPosReal_constant S .f32 _ ⟨1, one_pos, ofBits_one⟩

theorem isPosReal_constant_20000 (S : Shape) : IsPosReal (constant (F := Ideal) S .f32 0x469C4000#32) :=
  isPosReal_constant S .f32 _ ⟨20000, by norm_num, ofBits_20000⟩

theorem isPosReal_constant_eps (S : Shape) : IsPosReal (constant (F := Ideal) S .f32 0x3727C5AC#32) :=
  isPosReal_constant S .f32 _ ofBits_eps

theorem isNonnegReal_constant_zero (S : Shape) : IsNonnegReal (constant (F := Ideal) S .f32 0x00000000#32) :=
  fun _ => ⟨0, le_rfl, ofBits_zero⟩

/-! ### Maxima and sums -/

/-- The maximum of a finite array with a positive one is positive. -/
theorem isPosReal_maximumf_right {x y : FVec Ideal S φ} (hx : IsReal x) (hy : IsPosReal y) :
    IsPosReal (maximumf x y) := fun i => by
  obtain ⟨b, hb, eb⟩ := hy i
  obtain ⟨m, em⟩ := isReal_maximumf hx hy.isReal i
  refine ⟨m, ?_, em⟩
  have h := le_maximumf_right x y i
  rw [em, eb, EReal.coe_le_coe_iff] at h
  exact lt_of_lt_of_le hb h

/-- The maximum of a finite array with a nonnegative one is nonnegative. -/
theorem isNonnegReal_maximumf_right {x y : FVec Ideal S φ} (hx : IsReal x) (hy : IsNonnegReal y) :
    IsNonnegReal (maximumf x y) := fun i => by
  obtain ⟨b, hb, eb⟩ := hy i
  obtain ⟨m, em⟩ := isReal_maximumf hx hy.isReal i
  refine ⟨m, ?_, em⟩
  have h := le_maximumf_right x y i
  rw [em, eb, EReal.coe_le_coe_iff] at h
  exact le_trans hb h

/-- A nonnegative array plus a positive one is positive. -/
theorem isPosReal_addf {x y : FVec Ideal S φ} (hx : IsNonnegReal x) (hy : IsPosReal y) : IsPosReal (addf x y) :=
  fun i => by
    obtain ⟨a, ha, ea⟩ := hx i
    obtain ⟨b, hb, eb⟩ := hy i
    refine ⟨a + b, by linarith, ?_⟩
    show x i + y i = _
    rw [ea, eb, EReal.coe_add]

theorem isNonnegReal_addf {x y : FVec Ideal S φ} (hx : IsNonnegReal x) (hy : IsNonnegReal y) :
    IsNonnegReal (addf x y) := fun i => by
  obtain ⟨a, ha, ea⟩ := hx i
  obtain ⟨b, hb, eb⟩ := hy i
  refine ⟨a + b, by linarith, ?_⟩
  show x i + y i = _
  rw [ea, eb, EReal.coe_add]

/-- The entrywise square of a finite array is nonnegative. -/
theorem isNonnegReal_mulf_self {x : FVec Ideal S φ} (hx : IsReal x) : IsNonnegReal (mulf x x) := fun i => by
  obtain ⟨a, ea⟩ := hx i
  refine ⟨a * a, mul_self_nonneg a, ?_⟩
  show x i * x i = _
  rw [ea, EReal.coe_mul]

/-! ### Quotients -/

/-- The quotient of two reals, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-- The host's quotient of a finite array by an array of nonzero reals is finite. -/
theorem isReal_hostDivf {x y : FVec Ideal S φ} (hx : IsReal x) (hy : IsNonzeroReal y) : IsReal (Host.divf x y) :=
  fun i => real_div (hx i) (hy i)

/-- The same for a kernel's quotient. -/
theorem isReal_divf {x y : FVec Ideal S φ} (hx : IsReal x) (hy : IsNonzeroReal y) : IsReal (divf x y) :=
  fun i => real_div (hx i) (hy i)

/-- The host's quotient at an index where the operands' values are known. -/
theorem hostDivf_apply_coe {x y : FVec Ideal S φ} {i : S.Idx} {a b : ℝ} (ea : x i = (a : EReal))
    (eb : y i = (b : EReal)) (hb : b ≠ 0) : Host.divf x y i = ((a / b : ℝ) : EReal) := by
  show Ideal.div (x i) (y i) = _
  rw [ea, eb, div_coe_coe a hb]

/-- A nonnegative array over a positive one is nonnegative. -/
theorem isNonnegReal_hostDivf {x y : FVec Ideal S φ} (hx : IsNonnegReal x) (hy : IsPosReal y) :
    IsNonnegReal (Host.divf x y) := fun i => by
  obtain ⟨a, ha, ea⟩ := hx i
  obtain ⟨b, hb, eb⟩ := hy i
  exact ⟨a / b, div_nonneg ha hb.le, hostDivf_apply_coe ea eb hb.ne'⟩

/-! ### Reciprocal square roots -/

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The host's reciprocal square root at an index where the argument is a known positive real. -/
theorem hostRsqrt_apply_coe {v : FVec Ideal S φ} {i : S.Idx} {r : ℝ} (hr : 0 < r) (e : v i = (r : EReal)) :
    Host.rsqrt v i = (((Real.sqrt r)⁻¹ : ℝ) : EReal) := by
  show Ideal.rsqrt (v i) = _
  rw [e, rsqrt_coe_pos hr]

/-- The host's reciprocal square root of a positive array is positive (in particular finite). -/
theorem isPosReal_hostRsqrt {v : FVec Ideal S φ} (hv : IsPosReal v) : IsPosReal (Host.rsqrt v) := fun i => by
  obtain ⟨r, hr, e⟩ := hv i
  exact ⟨(Real.sqrt r)⁻¹, inv_pos.mpr (Real.sqrt_pos.mpr hr), hostRsqrt_apply_coe hr e⟩

/-- The same for a kernel's reciprocal square root. -/
theorem isPosReal_rsqrt {v : FVec Ideal S φ} (hv : IsPosReal v) : IsPosReal (rsqrt v) := fun i => by
  obtain ⟨r, hr, e⟩ := hv i
  refine ⟨(Real.sqrt r)⁻¹, inv_pos.mpr (Real.sqrt_pos.mpr hr), ?_⟩
  show Ideal.rsqrt (v i) = _
  rw [e, rsqrt_coe_pos hr]

end Cert.LibFinite

end
-- ==== Proof.LibHostRows.lean ====
/-
  A host program's row-wise reduction with kept dimensions, read at an index: the host's `reduce … add` of an
  `[a, b]` matrix along its second axis holds at row `r` the initial value plus the sum of that row's `b` entries; a
  vector `[a]` stretched to a column `[a, 1]` by `broadcast_in_dim` holds at `(p, u)` its entry `p`; a scalar stretched to
  any shape holds the scalar at every index; a column `[a, 1]` stretched over `c` columns holds at `(p, q)` its entry of
  row `p`. (An axis of extent one is the one a `broadcast_in_dim` repeats, so the long axis must not have extent one.)
-/
import Idealize.ShloMosaic.Lib.Pipeline.Value
import Idealize.ShloMosaic.Lib.ValueIdx
import Idealize.ShloMosaic.PureOps.Ideal.Laws

noncomputable section

open scoped BigOperators

namespace Cert.LibHostRows

open Idealize.ShloMosaic Idealize.ShloMosaic.ValueIdx

/-- The host's sum over the second axis of an `[a, b]` matrix, at row `r`: the initial value plus the sum of the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => ?_)
  exact congrArg x (funext fun c => Fin.ext (by
    match c with
    | ⟨0, _⟩ => rfl
    | ⟨1, _⟩ => rfl))

variable {α : Type}

/-- A vector stretched to a column, read at `(p, u)`: its entry `p`. -/
theorem bcast_vec_col_apply {n : ℕ} (hn : n ≠ 1) (d : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h d (ix2 p u) = d (ix1 p) :=
  broadcastInDim_apply ![0] h d (ix2 p u) (ix1 p) (fun a => by
    match a with
    | ⟨0, _⟩ => exact (if_neg hn).symm)

/-- A scalar stretched to any shape holds the scalar at every index. -/
theorem bcast_scalar_apply {t : Shape} (dims : Fin (⟨0, ![]⟩ : Shape).rank → Fin t.rank) (x : (⟨0, ![]⟩ : Shape).Idx → α)
    (h : (⟨0, ![]⟩ : Shape).BroadcastsInDim t dims) (j : t.Idx) :
    broadcastInDim t dims h x j = x ix0 :=
  broadcastInDim_apply dims h x j ix0 (fun a => a.elim0)

/-- A column stretched over `c` columns, read at `(p, q)`: its entry of row `p`. -/
theorem bcast_col_mat_apply {n c : ℕ} (hn : n ≠ 1) (v : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h v (ix2 p q) = v (ix2 p (0 : Fin 1)) :=
  broadcastInDim_apply ![0, 1] h v (ix2 p q) (ix2 p (0 : Fin 1)) (fun a => by
    match a with
    | ⟨0, _⟩ => exact (if_neg hn).symm
    | ⟨1, _⟩ => exact (if_pos rfl).symm)

end Cert.LibHostRows

end
-- ==== Proof.LibIndexPairs.lean ====
/-
  The index pairs a sparse matrix is built from, as both programs prepare them for the scatter: the `n × 2`
  integer array is cut into its row column and its column column, each entry below zero has the axis length
  added (Python's wrap-around of negative indices), and the two columns are laid side by side again.
  Read entry by entry; and when every row index is non-negative the row length that would have been added
  does not matter.
-/
import Idealize.ShloMosaic.Lib.Pipeline.Value
import Idealize.ShloMosaic.Lib.ValueIdx
import Idealize.ShloMosaic.Lib.ValueLayout
import Idealize.ShloMosaic.Lib.Affine

noncomputable section

namespace Idealize.ShloMosaic.IndexPairs

open Idealize.ShloMosaic Idealize.ShloMosaic.ValueIdx

variable (n : ℕ)
  (hsl0 : (⟨2, ![n, 2]⟩ : Shape).Slices ![0, 0] ⟨2, ![n, 1]⟩)
  (hsl1 : (⟨2, ![n, 2]⟩ : Shape).Slices ![0, 1] ⟨2, ![n, 1]⟩)
  (hsc : (⟨2, ![n, 1]⟩ : Shape).ShapeCasts ⟨1, ![n]⟩)
  (hb0 : (⟨0, ![]⟩ : Shape).BroadcastsInDim ⟨1, ![n]⟩ (![] : Fin 0 → Fin 1))
  (hb1 : (⟨1, ![n]⟩ : Shape).BroadcastsInDim ⟨2, ![n, 1]⟩ (![0] : Fin 1 → Fin 2))
  (hcat : Shape.Concatenates [(⟨2, ![n, 1]⟩ : Shape), ⟨2, ![n, 1]⟩] ⟨2, ![n, 2]⟩ 1)

/-- The row indices: column 0 of the pairs, as a vector. -/
def rows (x : IVec ⟨2, ![n, 2]⟩ 32) : IVec ⟨1, ![n]⟩ 32 :=
  shapeCast ⟨1, ![n]⟩ (extractStridedSlice ⟨2, ![n, 1]⟩ ![0, 0] x hsl0) hsc

/-- The column indices: column 1 of the pairs, as a vector. -/
def cols (x : IVec ⟨2, ![n, 2]⟩ 32) : IVec ⟨1, ![n]⟩ 32 :=
  shapeCast ⟨1, ![n]⟩ (extractStridedSlice ⟨2, ![n, 1]⟩ ![0, 1] x hsl1) hsc

theorem rows_apply (x : IVec ⟨2, ![n, 2]⟩ 32) (j : Fin n) : rows n hsl0 hsc x (ix1 j) = x (ix2 j (0 : Fin 2)) := by
  unfold rows
  rw [shapeCast_apply _ hsc (ix1 j) (ix2 j (0 : Fin 1)) (by
    rw [Shape.rowMajor_val_two, Shape.rowMajor_val_one]; show j.val * 1 + 0 = j.val; omega)]
  exact extractStridedSlice_apply ![0, 0] x hsl0 (ix2 j (0 : Fin 1)) (ix2 j (0 : Fin 2)) (fun a => match a with
    | ⟨0, _⟩ => by show j.val = 0 + j.val; omega
    | ⟨1, _⟩ => by show 0 = 0 + 0; omega)

theorem cols_apply (x : IVec ⟨2, ![n, 2]⟩ 32) (j : Fin n) : cols n hsl1 hsc x (ix1 j) = x (ix2 j (1 : Fin 2)) := by
  unfold cols
  rw [shapeCast_apply _ hsc (ix1 j) (ix2 j (0 : Fin 1)) (by
    rw [Shape.rowMajor_val_two, Shape.rowMajor_val_one]; show j.val * 1 + 0 = j.val; omega)]
  exact extractStridedSlice_apply ![0, 1] x hsl1 (ix2 j (0 : Fin 1)) (ix2 j (1 : Fin 2)) (fun a => match a with
    | ⟨0, _⟩ => by show j.val = 0 + j.val; omega
    | ⟨1, _⟩ => by show 1 = 1 + 0; omega)

/-- An index vector with the axis length `N` added to its negative entries. -/
def wrap (N : BitVec 32) (r : IVec ⟨1, ![n]⟩ 32) : IVec ⟨1, ![n]⟩ 32 :=
  select (cmpi .slt r (broadcastInDim ⟨1, ![n]⟩ ![] hb0 (constantI ⟨0, ![]⟩ 32 0#32)))
    (addi r (broadcastInDim ⟨1, ![n]⟩ ![] hb0 (constantI ⟨0, ![]⟩ 32 N))) r

theorem wrap_apply (N : BitVec 32) (r : IVec ⟨1, ![n]⟩ 32) (i : (⟨1, ![n]⟩ : Shape).Idx) :
    wrap n hb0 N r i = Scalar.select (IntOp.cmpi .slt (r i) 0#32) (IntOp.addi (r i) N) (r i) := by
  have e : ∀ b : BitVec 32, broadcastInDim ⟨1, ![n]⟩ ![] hb0 (constantI ⟨0, ![]⟩ 32 b) i = b := fun b =>
    broadcastInDim_apply _ hb0 _ i ix0 (fun a => a.elim0)
  show Scalar.select (IntOp.cmpi .slt (r i) (broadcastInDim ⟨1, ![n]⟩ ![] hb0 (constantI ⟨0, ![]⟩ 32 0#32) i))
    (IntOp.addi (r i) (broadcastInDim ⟨1, ![n]⟩ ![] hb0 (constantI ⟨0, ![]⟩ 32 N) i)) (r i) = _
  rw [e, e]

/-- A non-negative entry is left as it is, whatever the axis length. -/
theorem wrap_of_nonneg (N : BitVec 32) (r : IVec ⟨1, ![n]⟩ 32) (i : (⟨1, ![n]⟩ : Shape).Idx) (h : 0 ≤ (r i).toInt) :
    wrap n hb0 N r i = r i := by
  rw [wrap_apply]
  have hne : ¬IntOp.cmpi .slt (r i) 0#32 = 1#1 := fun hh => by
    have := IntOp.cmpi_slt.1 hh
    rw [BitVec.toInt_zero] at this
    omega
  exact if_neg hne

/-- The pairs as the scatter takes them: rows wrapped by `N`, columns wrapped by `M`, side by side. -/
def pairs (N M : BitVec 32) (x : IVec ⟨2, ![n, 2]⟩ 32) : IVec ⟨2, ![n, 2]⟩ 32 :=
  concatenate ⟨2, ![n, 2]⟩ 1
    [⟨⟨2, ![n, 1]⟩, broadcastInDim ⟨2, ![n, 1]⟩ ![0] hb1 (wrap n hb0 N (rows n hsl0 hsc x))⟩,
     ⟨⟨2, ![n, 1]⟩, broadcastInDim ⟨2, ![n, 1]⟩ ![0] hb1 (wrap n hb0 M (cols n hsl1 hsc x))⟩] hcat

theorem column_apply (v : IVec ⟨1, ![n]⟩ 32) (j : Fin n) :
    broadcastInDim ⟨2, ![n, 1]⟩ ![0] hb1 v (ix2 j (0 : Fin 1)) = v (ix1 j) :=
  broadcastInDim_apply ![0] hb1 v (ix2 j (0 : Fin 1)) (ix1 j) (fun a => match a with
    | ⟨0, _⟩ => by
      show j.val = if n = 1 then 0 else j.val
      split
      · have := j.isLt; omega
      · rfl)

theorem pairs_apply_row (N M : BitVec 32) (x : IVec ⟨2, ![n, 2]⟩ 32) (j : Fin n) :
    pairs n hsl0 hsl1 hsc hb0 hb1 hcat N M x (ix2 j (0 : Fin 2)) = wrap n hb0 N (rows n hsl0 hsc x) (ix1 j) := by
  unfold pairs
  rw [concatenate_pair_apply_left (s₁ := ⟨2, ![n, 1]⟩) (s₂ := ⟨2, ![n, 1]⟩) (1 : Fin 2) _ _ hcat (ix2 j (0 : Fin 2)) rfl (ix2 j (0 : Fin 1)) (fun b => match b with
    | ⟨0, _⟩ => rfl
    | ⟨1, _⟩ => rfl)]
  exact column_apply n hb1 _ j

theorem pairs_apply_col (N M : BitVec 32) (x : IVec ⟨2, ![n, 2]⟩ 32) (j : Fin n) :
    pairs n hsl0 hsl1 hsc hb0 hb1 hcat N M x (ix2 j (1 : Fin 2)) = wrap n hb0 M (cols n hsl1 hsc x) (ix1 j) := by
  unfold pairs
  rw [concatenate_pair_apply_right (s₁ := ⟨2, ![n, 1]⟩) (s₂ := ⟨2, ![n, 1]⟩) (1 : Fin 2) _ _ hcat (ix2 j (1 : Fin 2)) rfl rfl (ix2 j (0 : Fin 1)) (fun b hb => match b, hb with
    | ⟨0, _⟩, _ => rfl
    | ⟨1, _⟩, hb => absurd rfl hb) rfl]
  exact column_apply n hb1 _ j

/-- With every row index non-negative, the pairs do not depend on the row length used for wrapping. -/
theorem pairs_eq_of_rows_nonneg (N N' M : BitVec 32) (x : IVec ⟨2, ![n, 2]⟩ 32)
    (h : ∀ j : Fin n, 0 ≤ (x (ix2 j (0 : Fin 2))).toInt) :
    pairs n hsl0 hsl1 hsc hb0 hb1 hcat N M x = pairs n hsl0 hsl1 hsc hb0 hb1 hcat N' M x := by
  funext i
  obtain ⟨j, b, rfl⟩ : ∃ (j : Fin n) (b : Fin 2), i = ix2 j b := ⟨i 0, i 1, eq_ix2 i⟩
  match b with
  | ⟨0, _⟩ =>
    show pairs n hsl0 hsl1 hsc hb0 hb1 hcat N M x (ix2 j (0 : Fin 2)) = pairs n hsl0 hsl1 hsc hb0 hb1 hcat N' M x (ix2 j (0 : Fin 2))
    have hr : 0 ≤ (rows n hsl0 hsc x (ix1 j)).toInt := by rw [rows_apply]; exact h j
    rw [pairs_apply_row, pairs_apply_row, wrap_of_nonneg n hb0 N _ _ hr, wrap_of_nonneg n hb0 N' _ _ hr]
  | ⟨1, _⟩ =>
    show pairs n hsl0 hsl1 hsc hb0 hb1 hcat N M x (ix2 j (1 : Fin 2)) = pairs n hsl0 hsl1 hsc hb0 hb1 hcat N' M x (ix2 j (1 : Fin 2))
    rw [pairs_apply_col, pairs_apply_col]

end Idealize.ShloMosaic.IndexPairs

end
-- ==== Proof.PreFacts.lean ====
/-
  What the precondition says about the inputs.

  The precondition is a conjunction of "all entries satisfy …" tests. Read entry by entry it gives:
  * every feature x(n, d) and every edge weight w(e) is a real number: |v| < +∞ excludes both infinities;
  * every entry of the source list and of the destination list, read as a signed integer, is a node number
    in [0, 16384);
  * for every edge e the product p(e) = w_out(src e) * w_in(dst e) of the two weighted degree sums is
    positive. (The precondition adds the weights up at the lists with their negative entries wrapped by +16384;
    for lists in range, which the conjuncts before say they are, wrapping changes nothing, so these are the
    reference's sums.) The reciprocal square root of a positive extended real is a real number ((√p)⁻¹ for a real p,
    0 for p = +∞), so the per-edge coefficient w(e) * rsqrt(p(e)) is a real number too.
-/
import proofs.«117616_j77541339562223_2_alg».proof.Pre_finite_inputs
import proofs.«117616_j77541339562223_2_alg».proof.Proof.Gen.Pre_finite_inputs
import proofs.«117616_j77541339562223_2_alg».proof.Proof.Gen.ReferenceIdeal.Read
import proofs.«117616_j77541339562223_2_alg».proof.Proof.Spec
import proofs.«117616_j77541339562223_2_alg».proof.Proof.LibFiniteMisc
import proofs.«117616_j77541339562223_2_alg».proof.Proof.LibFiniteDiv
import proofs.«117616_j77541339562223_2_alg».proof.Proof.LibHostRows
import proofs.«117616_j77541339562223_2_alg».proof.Proof.LibIndexPairs
import Idealize.ShloMosaic.Lib.ReduceAll
import Idealize.ShloMosaic.Lib.Affine

set_option Elab.async false
set_option maxRecDepth 16384

noncomputable section

namespace Cert.PreFacts

open Idealize.ShloMosaic Idealize.ShloMosaic.ValueIdx Cert.GraphConv Cert.LibFinite

instance : Subsingleton (⟨0, ![]⟩ : Shape).Idx := ⟨fun a b => funext fun d => d.elim0⟩

/-- The word 0x7F800000 is +∞. -/
theorem inf_word : Ideal.ofBits .f32 0x7F800000#32 = ⊤ := by
  simp [Ideal.ofBits, Ideal.ieee]

/-- A "less than" test that answered 1 held. -/
theorem lt_of_cmp_olt {a b : EReal} (h : Ideal.cmp .olt a b = 1#1) : a < b := by
  by_contra hn
  rw [cmp_olt_of_not_lt hn] at h
  exact absurd h (by decide)

/-- A "greater than" test that answered 1 held. -/
theorem lt_of_cmp_ogt {a b : EReal} (h : Ideal.cmp .ogt a b = 1#1) : b < a := by
  by_contra hn
  rw [cmp_ogt_of_not_lt hn] at h
  exact absurd h (by decide)

/-- An extended real whose absolute value is below +∞ is a real number. -/
theorem real_of_abs_lt_top (x : EReal) (h : max x (-x) < ⊤) : ∃ r : ℝ, x = (r : EReal) := by
  refine real_of_ne ?_ ?_
  · rintro rfl
    simp at h
  · rintro rfl
    simp at h

/-- "All entries have absolute value below +∞" makes every entry a real number. -/
theorem isReal_of_all_abs_lt {S : Shape} {axes : List (Fin S.rank)} (x : S.Idx → EReal)
    (hb : (⟨0, ![]⟩ : Shape).BroadcastsInDim S (![] : Fin 0 → Fin S.rank))
    (hred : S.ReducesTo axes (⟨0, ![]⟩ : Shape)) (hS : 0 < (⟨0, ![]⟩ : Shape).numel)
    (h : Host.reduce IntOp.andi
        (cmpf .olt (Host.absf (F := Ideal) (φ := .f32) x)
          (broadcastInDim S ![] hb (constant (F := Ideal) (⟨0, ![]⟩ : Shape) .f32 0x7F800000#32)))
        (constantI (⟨0, ![]⟩ : Shape) 1 1#1) hred hS ix0 = 1#1) : IsReal x := by
  intro i
  have e := Host.reduce_andi_all _ _ hred hS ix0 h i
  rw [cmpf_apply_ideal] at e
  have hlt := lt_of_cmp_olt e
  rw [Cert.LibHostRows.bcast_scalar_apply] at hlt
  have hlt' : max (x i) (-(x i)) < Ideal.ofBits .f32 0x7F800000#32 := hlt
  rw [inf_word] at hlt'
  exact real_of_abs_lt_top _ hlt'

/-- "All entries are in [0, 16384)" for an index list. -/
theorem inRange_of_all (idx : IVec SE 32)
    (hb : (⟨0, ![]⟩ : Shape).BroadcastsInDim SE (![] : Fin 0 → Fin SE.rank))
    (hred : SE.ReducesTo [0] (⟨0, ![]⟩ : Shape)) (hS : 0 < (⟨0, ![]⟩ : Shape).numel)
    (h : Host.reduce IntOp.andi
        (andi (cmpi .sge idx (broadcastInDim SE ![] hb (constantI (⟨0, ![]⟩ : Shape) 32 0#32)))
          (cmpi .slt idx (broadcastInDim SE ![] hb (constantI (⟨0, ![]⟩ : Shape) 32 16384#32))))
        (constantI (⟨0, ![]⟩ : Shape) 1 1#1) hred hS ix0 = 1#1) : InRange idx := by
  intro e
  have he := Host.reduce_andi_all _ _ hred hS ix0 h (ix1 e)
  have he' : IntOp.andi (IntOp.cmpi .sge (idx (ix1 e)) (broadcastInDim SE ![] hb (constantI (⟨0, ![]⟩ : Shape) 32 0#32) (ix1 e)))
      (IntOp.cmpi .slt (idx (ix1 e)) (broadcastInDim SE ![] hb (constantI (⟨0, ![]⟩ : Shape) 32 16384#32) (ix1 e))) = 1#1 := he
  rw [Cert.LibHostRows.bcast_scalar_apply, Cert.LibHostRows.bcast_scalar_apply] at he'
  obtain ⟨h1, h2⟩ := IntOp.andi_eq_one.mp he'
  have h1' := IntOp.cmpi_sge.mp h1
  have h2' := IntOp.cmpi_slt.mp h2
  have z : (constantI (⟨0, ![]⟩ : Shape) 32 0#32 ix0).toInt = 0 := by decide
  have s : (constantI (⟨0, ![]⟩ : Shape) 32 16384#32 ix0).toInt = 16384 := by decide
  rw [z] at h1'
  rw [s] at h2'
  exact ⟨h1', h2'⟩

/-- The reciprocal square root of a positive extended real is a real number. -/
theorem real_rsqrt_of_pos {p : EReal} (hp : 0 < p) : ∃ r : ℝ, Ideal.rsqrt p = (r : EReal) := by
  by_cases ht : p = ⊤
  · subst ht
    exact ⟨0, by simp⟩
  · have hb : p ≠ ⊥ := fun hb => by rw [hb] at hp; exact absurd hp (by simp)
    obtain ⟨r, rfl⟩ := real_of_ne ht hb
    have hr : 0 < r := by exact_mod_cast hp
    exact ⟨(Real.sqrt r)⁻¹, rsqrt_coe_pos hr⟩

/-- In range, an index list with its negative entries wrapped by the number of nodes is the list itself. -/
theorem wrap_eq (idx : IVec SE 32) (h : InRange idx)
    (hb0 : (⟨0, ![]⟩ : Shape).BroadcastsInDim SE (![] : Fin 0 → Fin SE.rank)) :
    select (cmpi .slt idx (broadcastInDim SE ![] hb0 (constantI (⟨0, ![]⟩ : Shape) 32 0#32)))
      (addi idx (broadcastInDim SE ![] hb0 (constantI (⟨0, ![]⟩ : Shape) 32 16384#32))) idx = idx := by
  funext i
  obtain ⟨e, rfl⟩ : ∃ e : Fin 131072, i = ix1 e := ⟨i 0, eq_ix1 i⟩
  exact IndexPairs.wrap_of_nonneg 131072 hb0 16384#32 idx (ix1 e) (h e).1

/-- An index list with its negative entries wrapped, as the precondition spells it. -/
def wrapP (idx : IVec SE 32) : IVec SE 32 :=
  select (cmpi .slt idx (broadcastInDim Cert.Pre_finite_inputs.S131072 ![] Cert.Pre_finite_inputs.Facts.bcast_S_S131072
      (constantI Cert.Pre_finite_inputs.S_ 32 0#32)))
    (addi idx (broadcastInDim Cert.Pre_finite_inputs.S131072 ![] Cert.Pre_finite_inputs.Facts.bcast_S_S131072
      (constantI Cert.Pre_finite_inputs.S_ 32 16384#32))) idx

theorem wrapP_eq (idx : IVec SE 32) (h : InRange idx) : wrapP idx = idx :=
  wrap_eq idx h Cert.Pre_finite_inputs.Facts.bcast_S_S131072

/-- The per-node sum of the weights at the entries of the list a, read at the entries of the list b. -/
def sumAt (w : SE.Idx → EReal) (a b : IVec SE 32) : SE.Idx → EReal :=
  Host.gather Cert.Pre_finite_inputs.gather_S16384_S131072x1_S131072_n_0_n_n_0_1_1
    (Host.scatterAdd (F := Ideal) (φ := .f32) Cert.Pre_finite_inputs.scatter_S16384_S131072x1_S131072_n_0_0_1
      (broadcastInDim Cert.Pre_finite_inputs.S16384 ![] Cert.Pre_finite_inputs.Facts.bcast_S_S16384
        (constant (F := Ideal) Cert.Pre_finite_inputs.S_ .f32 0x00000000#32))
      (broadcastInDim Cert.Pre_finite_inputs.S131072x1 ![0] Cert.Pre_finite_inputs.Facts.bcast_S131072_S131072x1_0 a) w)
    (broadcastInDim Cert.Pre_finite_inputs.S131072x1 ![0] Cert.Pre_finite_inputs.Facts.bcast_S131072_S131072x1_0 b)

/-- The degree product, the scatter's index lists (a, a') and the gather's (b, b') kept apart. -/
def degProd (w : SE.Idx → EReal) (a b a' b' : IVec SE 32) : SE.Idx → EReal :=
  mulf (F := Ideal) (s := Cert.Pre_finite_inputs.S131072) (φ := .f32) (sumAt w a b) (sumAt w a' b')

/-- With the weights added up at the lists as they are and read at the wrapped lists, this is the argument of the
    reference's reciprocal square root. -/
theorem degProd_ref (x1 : SE.Idx → EReal) (x4 x5 : IVec SE 32) :
    degProd x1 x4 (wrapP x4) x5 (wrapP x5) = Cert.ReferenceIdeal.Read.val_main_v21 (F := Ideal) x1 x4 x5 := rfl

/-- THE PRECONDITION, READ: the features and the weights are reals, both index lists are in range, and every
    per-edge coefficient of the reference (weight times the reciprocal square root of the degree product) is a real. -/
theorem of_pre (x0 : SND.Idx → EReal) (x1 : SE.Idx → EReal) (x2 : SDD.Idx → EReal) (x3 : SD.Idx → EReal) (x4 x5 : IVec SE 32)
    (h : Cert.Pre_finite_inputs.fn (F := Ideal) x0 x1 x2 x3 x4 x5 = fun _ => 1#1) :
    IsReal x0 ∧ InRange x4 ∧ InRange x5 ∧ IsReal (Cert.ReferenceIdeal.Read.val_main_v23 (F := Ideal) x1 x4 x5) := by
  have h0 := congrFun h ValueIdx.ix0
  dsimp only [Cert.Pre_finite_inputs.fn, Cert.Pre_finite_inputs.fn_part1, Cert.Pre_finite_inputs.fn_part2,
    Cert.Pre_finite_inputs.fn_part3] at h0
  obtain ⟨h38, h56⟩ := IntOp.andi_eq_one.mp h0
  obtain ⟨h31, h37⟩ := IntOp.andi_eq_one.mp h38
  obtain ⟨h24, h30⟩ := IntOp.andi_eq_one.mp h31
  obtain ⟨h19, _⟩ := IntOp.andi_eq_one.mp h24
  obtain ⟨h14, _⟩ := IntOp.andi_eq_one.mp h19
  obtain ⟨h9, h13⟩ := IntOp.andi_eq_one.mp h14
  have hx0 : IsReal x0 := isReal_of_all_abs_lt x0 _ _ _ h9
  have hx1 : IsReal x1 := isReal_of_all_abs_lt x1 _ _ _ h13
  refine ⟨hx0, inRange_of_all x4 _ _ _ h30, inRange_of_all x5 _ _ _ h37, ?_⟩
  intro i
  have e := Host.reduce_andi_all _ _ _ _ ix0 h56 i
  rw [cmpf_apply_ideal] at e
  have hp := lt_of_cmp_ogt e
  rw [Cert.LibHostRows.bcast_scalar_apply] at hp
  have hp' : (0 : EReal) < Cert.ReferenceIdeal.Read.val_main_v21 (F := Ideal) x1 x4 x5 i := by
    have z : constant (F := Ideal) (⟨0, ![]⟩ : Shape) .f32 0x00000000#32 ix0 = 0 := Ideal.ofBits_zero_f32
    rw [z] at hp
    have hp1 : (0 : EReal) < degProd x1 (wrapP x4) (wrapP x4) (wrapP x5) (wrapP x5) i := hp
    have e4 : degProd x1 (wrapP x4) (wrapP x4) (wrapP x5) (wrapP x5) = degProd x1 x4 (wrapP x4) (wrapP x5) (wrapP x5) :=
      congrArg (fun a => degProd x1 a (wrapP x4) (wrapP x5) (wrapP x5)) (wrapP_eq x4 (inRange_of_all x4 _ _ _ h30))
    have e5 : degProd x1 x4 (wrapP x4) (wrapP x5) (wrapP x5) = degProd x1 x4 (wrapP x4) x5 (wrapP x5) :=
      congrArg (fun a => degProd x1 x4 (wrapP x4) a (wrapP x5)) (wrapP_eq x5 (inRange_of_all x5 _ _ _ h37))
    rw [e4, e5, degProd_ref] at hp1
    exact hp1
  obtain ⟨r, hr⟩ := real_rsqrt_of_pos hp'
  obtain ⟨a, ha⟩ := hx1 i
  refine ⟨a * r, ?_⟩
  rw [Cert.ReferenceIdeal.Read.val_main_v23_apply, Cert.ReferenceIdeal.Read.val_main_v22_apply, Ideal.hostUnary_rsqrt_def, hr, ha]
  exact (EReal.coe_mul a r).symm

end Cert.PreFacts

end
-- ==== Proof.HostChain.lean ====
/-
  What the host operations before the launch hand the kernel's four input windows, as functions of the
  argument arrays w (edge weights), src and dst (the index lists), x, W and b.

  * window 0: the dense adjacency matrix. Per edge the coefficient
      v(e) = (c(e) * rdo[src e]) * rdi[dst e],   c(e) = w(e) * rsqrt(w_out[src e] * w_in[dst e]),
    where w_out / w_in are the weight sums per source / destination node and rdo / rdi the reciprocal square
    roots of the out- / in-degrees clipped below at 1; these are added into a zero [16384, 16384] matrix at
    the index pairs (dst e, src e), negative entries of either list first wrapped by +16384; then the matrix is
    stored in a narrower float format, which changes no value on the extended reals.
  * windows 1 and 2: x and W in the narrower format (the same values); window 3: b as one row.
-/
import proofs.«117616_j77541339562223_2_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

/-- An index list with its negative entries wrapped by the number of nodes. -/
def wrapIdx (idx : IVec S131072 32) : IVec S131072 32 :=
  select (cmpi .slt idx (broadcastInDim S131072 ![] bcast_S_S131072 (constantI S_ 32 0#32)))
    (addi idx (broadcastInDim S131072 ![] bcast_S_S131072 (constantI S_ 32 16384#32))) idx

/-- A list of 131072 words as one column. -/
def col (v : IVec S131072 32) : IVec S131072x1 32 := broadcastInDim S131072x1 ![0] bcast_S131072_S131072x1_0 v

/-- The sum of the updates per node: a scatter-add into zeros at the list's entries as they are. -/
def segSum (idx : IVec S131072 32) (u : FVec Ideal S131072 .f32) : FVec Ideal S16384 .f32 :=
  Host.scatterAdd scatter_S16384_S131072x1_S131072_n_0_0_1
    (broadcastInDim S16384 ![] bcast_S_S16384 (constant S_ .f32 0x00000000#32)) (col idx) u

/-- A per-node vector read at every edge's (wrapped) node. -/
def atNode (v : FVec Ideal S16384 .f32) (idx : IVec S131072 32) : FVec Ideal S131072 .f32 :=
  Host.gather gather_S16384_S131072x1_S131072_n_0_n_n_0_1_1 v (col (wrapIdx idx))

/-- The per-edge coefficient c. -/
def cvK (w : FVec Ideal S131072 .f32) (src dst : IVec S131072 32) : FVec Ideal S131072 .f32 :=
  mulf w (Host.rsqrt (mulf (atNode (segSum src w) src) (atNode (segSum dst w) dst)))

/-- The reciprocal square root of the degree (the number of edges at the node) clipped below at 1. -/
def rdK (idx : IVec S131072 32) : FVec Ideal S16384 .f32 :=
  Host.rsqrt (maximumf (broadcastInDim S16384 ![] bcast_S_S16384 (constant S_ .f32 0x3F800000#32))
    (segSum idx (broadcastInDim S131072 ![] bcast_S_S131072 (constant S_ .f32 0x3F800000#32))))

/-- The per-edge entry of the adjacency matrix. -/
def vK (w : FVec Ideal S131072 .f32) (src dst : IVec S131072 32) : FVec Ideal S131072 .f32 :=
  mulf (mulf (cvK w src dst) (atNode (rdK src) src)) (atNode (rdK dst) dst)

/-- The (destination, source) index pairs. -/
def pairsK (src dst : IVec S131072 32) : IVec S131072x2 32 :=
  concatenate S131072x2 1 [⟨S131072x1, col (wrapIdx dst)⟩, ⟨S131072x1, col (wrapIdx src)⟩]
    concatenates_S131072x1_S131072x1_S131072x2_d1

/-- The dense adjacency matrix before its change of format. -/
def adjK (w : FVec Ideal S131072 .f32) (src dst : IVec S131072 32) : FVec Ideal S16384x16384 .f32 :=
  Host.scatterAdd scatter_S16384x16384_S131072x2_S131072_n_01_01_1
    (broadcastInDim S16384x16384 ![] bcast_S_S16384x16384 (constant S_ .f32 0x00000000#32)) (pairsK src dst) (vK w src dst)

/-- Two columns side by side depend only on the columns. -/
theorem concat_congr {a a' b b' : IVec S131072x1 32} (ha : a = a') (hb : b = b') :
    concatenate S131072x2 1 [⟨S131072x1, a⟩, ⟨S131072x1, b⟩] concatenates_S131072x1_S131072x1_S131072x2_d1
      = concatenate S131072x2 1 [⟨S131072x1, a'⟩, ⟨S131072x1, b'⟩] concatenates_S131072x1_S131072x1_S131072x2_d1 := by
  subst ha; subst hb; rfl

variable (m : (ℓ : Loc nD τ sig) → Buf (Elt Ideal) ℓ)

/-- Window 3's array: the bias as one row. -/
theorem V_v68 (c : Dev nD) :
    V m c main_v68 = fun i => shapeCast S1x1024 (m ((c : Thread nD τ).loc main_arg3)) shapeCasts_S1024_S1x1024 i := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- Window 1's array: the features (the change of format changes no value). -/
theorem V_v66 (c : Dev nD) :
    (V m c main_v66 : S16384x1024.Idx → EReal) = (m ((c : Thread nD τ).loc main_arg0) : S16384x1024.Idx → EReal) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- Window 2's array: the weight (the change of format changes no value). -/
theorem V_v67 (c : Dev nD) :
    (V m c main_v67 : S1024x1024.Idx → EReal) = (m ((c : Thread nD τ).loc main_arg2) : S1024x1024.Idx → EReal) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The stored matrix depends only on the index pairs and the per-edge entries. -/
theorem stored_congr {P P' : IVec S131072x2 32} {u u' : FVec Ideal S131072 .f32} (hP : P = P') (hu : u = u') :
    truncf .bf16 (Host.scatterAdd scatter_S16384x16384_S131072x2_S131072_n_01_01_1
        (broadcastInDim S16384x16384 ![] bcast_S_S16384x16384 (constant (F := Ideal) S_ .f32 0x00000000#32)) P u) bitsLt_bf16_f32
      = truncf .bf16 (Host.scatterAdd scatter_S16384x16384_S131072x2_S131072_n_01_01_1
        (broadcastInDim S16384x16384 ![] bcast_S_S16384x16384 (constant (F := Ideal) S_ .f32 0x00000000#32)) P' u') bitsLt_bf16_f32 := by
  subst hP; subst hu; rfl

set_option maxHeartbeats 8000000 in
/-- Window 0's array: the dense adjacency matrix in the narrower format. The two index columns sit inside the
    concatenation's list of pieces, so they are read separately. -/
theorem V_v65_stored (c : Dev nD) :
    (V m c main_v65 : FVec Ideal S16384x16384 .bf16)
      = truncf .bf16 (adjK (m ((c : Thread nD τ).loc main_arg1)) (m ((c : Thread nD τ).loc main_arg4))
          (m ((c : Thread nD τ).loc main_arg5))) bitsLt_bf16_f32 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  unfold adjK pairsK
  refine stored_congr (concat_congr ?_ ?_) ?_
  · after_results_simp
    rfl
  · after_results_simp
    rfl
  · rfl

/-- The change of format changes no value: window 0's array is the dense adjacency matrix. -/
theorem V_v65 (c : Dev nD) :
    (V m c main_v65 : S16384x16384.Idx → EReal)
      = adjK (m ((c : Thread nD τ).loc main_arg1)) (m ((c : Thread nD τ).loc main_arg4)) (m ((c : Thread nD τ).loc main_arg5)) :=
  (V_v65_stored m c).trans (funext fun _ => rfl)

end Cert.KernelIdeal.Host

end
-- ==== Proof.LibPairScatter.lean ====
/-
  A scatter-add of scalar updates into a matrix, each update placed by a two-component index vector
  (row, column): update `j` lands at `(idx (j, 0), idx (j, 1))`, both read signed, and is dropped when that
  is outside the matrix.  Two such scatters into zero matrices of the same width but different heights,
  driven by the same indices and updates, agree on every row both matrices have.
-/
import Idealize.ShloMosaic.PureOps.Ideal
import Idealize.ShloMosaic.Lib.ValueIdx

noncomputable section

namespace Idealize.ShloMosaic.PairScatter

open Idealize.ShloMosaic Idealize.ShloMosaic.ValueIdx

variable {A B n w : ℕ}

/-- The dimension numbers of a scatter of `n` scalars into an `A × B` matrix by `n` index pairs. -/
abbrev dims (A B n : ℕ) (wf : ScatterDims.WF ⟨2, ![A, B]⟩ ⟨2, ![n, 2]⟩ ⟨1, ![n]⟩ [] [0, 1] [0, 1] 1) :
    ScatterDims ⟨2, ![A, B]⟩ ⟨2, ![n, 2]⟩ ⟨1, ![n]⟩ :=
  ⟨[], [0, 1], [0, 1], 1, wf⟩

variable (wf : ScatterDims.WF ⟨2, ![A, B]⟩ ⟨2, ![n, 2]⟩ ⟨1, ![n]⟩ [] [0, 1] [0, 1] 1)

theorem siIdx_zero (j : (⟨1, ![n]⟩ : Shape).Idx) :
    (dims A B n wf).siIdx j ⟨0, Nat.zero_lt_two⟩ = ix2 (j 0) (0 : Fin 2) := by
  funext b
  match b with
  | ⟨0, _⟩ => rfl
  | ⟨1, _⟩ => rfl

theorem siIdx_one (j : (⟨1, ![n]⟩ : Shape).Idx) :
    (dims A B n wf).siIdx j ⟨1, Nat.one_lt_two⟩ = ix2 (j 0) (1 : Fin 2) := by
  funext b
  match b with
  | ⟨0, _⟩ => rfl
  | ⟨1, _⟩ => rfl

/-- The start of update `j`'s window on the row axis is its index pair's first component, read signed. -/
theorem start_zero (j : (⟨1, ![n]⟩ : Shape).Idx) (idx : IVec ⟨2, ![n, 2]⟩ w) :
    (dims A B n wf).start j idx 0 = (idx (ix2 (j 0) (0 : Fin 2))).toInt := by
  unfold ScatterDims.start
  rw [dif_pos (show (0 : Fin 2) ∈ [(0 : Fin 2), 1] by decide)]
  exact congrArg (fun k => (idx k).toInt) (siIdx_zero wf j)

/-- … and on the column axis its second component. -/
theorem start_one (j : (⟨1, ![n]⟩ : Shape).Idx) (idx : IVec ⟨2, ![n, 2]⟩ w) :
    (dims A B n wf).start j idx 1 = (idx (ix2 (j 0) (1 : Fin 2))).toInt := by
  unfold ScatterDims.start
  rw [dif_pos (show (1 : Fin 2) ∈ [(0 : Fin 2), 1] by decide)]
  exact congrArg (fun k => (idx k).toInt) (siIdx_one wf j)

/-- A scalar update has no window coordinate. -/
theorem window_eq (j : (⟨1, ![n]⟩ : Shape).Idx) (a : Fin 2) : (dims A B n wf).window j a = 0 := by
  have hk : (dims A B n wf).sKept = [] := by
    show (List.finRange 2).filter (fun x : Fin 2 => x ∉ [(0 : Fin 2), 1]) = []
    decide
  unfold ScatterDims.window
  rw [dif_neg (by rw [hk]; exact List.not_mem_nil)]

/-- Update `j` lands at `i` exactly when its index pair, read signed, is `i`'s coordinates. -/
theorem resultIdx?_eq_some_iff (j : (⟨1, ![n]⟩ : Shape).Idx) (idx : IVec ⟨2, ![n, 2]⟩ w) (i : (⟨2, ![A, B]⟩ : Shape).Idx) :
    (dims A B n wf).resultIdx? j idx = some i ↔
      (idx (ix2 (j 0) (0 : Fin 2))).toInt = ((i 0).val : Int) ∧ (idx (ix2 (j 0) (1 : Fin 2))).toInt = ((i 1).val : Int) := by
  have h0 := start_zero wf j idx
  have h1 := start_one wf j idx
  have w0 := window_eq wf j 0
  have w1 := window_eq wf j 1
  have hi0 : (i 0).val < A := (i 0).isLt
  have hi1 : (i 1).val < B := (i 1).isLt
  unfold ScatterDims.resultIdx?
  constructor
  · intro h
    split at h
    · next hin =>
      have e := Option.some.inj h
      have e0 : ((dims A B n wf).start j idx 0 + ((dims A B n wf).window j 0 : Int)).toNat = (i 0).val :=
        congrArg (fun k : (⟨2, ![A, B]⟩ : Shape).Idx => (k 0).val) e
      have e1 : ((dims A B n wf).start j idx 1 + ((dims A B n wf).window j 1 : Int)).toNat = (i 1).val :=
        congrArg (fun k : (⟨2, ![A, B]⟩ : Shape).Idx => (k 1).val) e
      have b0 := hin 0
      have b1 := hin 1
      rw [w0, h0] at e0 b0
      rw [w1, h1] at e1 b1
      omega
    · exact absurd h (by simp)
  · rintro ⟨e0, e1⟩
    have hin : ∀ a, 0 ≤ (dims A B n wf).start j idx a + ((dims A B n wf).window j a : Int) ∧
        (dims A B n wf).start j idx a + ((dims A B n wf).window j a : Int) < ((⟨2, ![A, B]⟩ : Shape).size a : Int) := by
      refine Fin.forall_fin_two.2 ⟨?_, ?_⟩
      · rw [w0, h0, e0]; show _ ∧ _ < (A : Int); omega
      · rw [w1, h1, e1]; show _ ∧ _ < (B : Int); omega
    rw [dif_pos hin]
    have key : ∀ a : Fin 2, ((dims A B n wf).start j idx a + ((dims A B n wf).window j a : Int)).toNat = (i a).val := by
      refine Fin.forall_fin_two.2 ⟨?_, ?_⟩
      · rw [w0, h0, e0]; omega
      · rw [w1, h1, e1]; omega
    exact congrArg some (funext fun a => Fin.ext (key a))

/-- Two scatter-adds of the same updates by the same index pairs, into matrices of heights `A₁` and `A₂`
    and the same width, agree at a row both have when the operands agree there: an update lands at that
    entry of the one exactly when it lands at that entry of the other. -/
theorem hostScatterAdd_common_row {A₁ A₂ : ℕ}
    (wf₁ : ScatterDims.WF ⟨2, ![A₁, B]⟩ ⟨2, ![n, 2]⟩ ⟨1, ![n]⟩ [] [0, 1] [0, 1] 1)
    (wf₂ : ScatterDims.WF ⟨2, ![A₂, B]⟩ ⟨2, ![n, 2]⟩ ⟨1, ![n]⟩ [] [0, 1] [0, 1] 1)
    (x₁ : (⟨2, ![A₁, B]⟩ : Shape).Idx → EReal) (x₂ : (⟨2, ![A₂, B]⟩ : Shape).Idx → EReal)
    (idx : IVec ⟨2, ![n, 2]⟩ w) (upd : (⟨1, ![n]⟩ : Shape).Idx → EReal)
    (k₁ : Fin A₁) (k₂ : Fin A₂) (hk : k₁.val = k₂.val) (q : Fin B) (hx : x₁ (ix2 k₁ q) = x₂ (ix2 k₂ q)) :
    Ideal.hostScatterAdd (dims A₁ B n wf₁) x₁ idx upd (ix2 k₁ q)
      = Ideal.hostScatterAdd (dims A₂ B n wf₂) x₂ idx upd (ix2 k₂ q) := by
  unfold Ideal.hostScatterAdd
  rw [hx]
  refine congrArg (x₂ (ix2 k₂ q) + ·) (Finset.sum_congr (Finset.filter_congr fun j _ => ?_) fun _ _ => rfl)
  rw [resultIdx?_eq_some_iff wf₁, resultIdx?_eq_some_iff wf₂]
  show _ = ((k₁.val : Int)) ∧ _ = ((q.val : Int)) ↔ _ = ((k₂.val : Int)) ∧ _ = ((q.val : Int))
  rw [hk]

/-- The same for the host's scatter-add at the extended reals, for any two dimension records that are the pair
    scatter's (whatever name a program gives them). -/
theorem host_scatterAdd_common_row {A₁ A₂ : ℕ}
    (d₁ : ScatterDims ⟨2, ![A₁, B]⟩ ⟨2, ![n, 2]⟩ ⟨1, ![n]⟩) (d₂ : ScatterDims ⟨2, ![A₂, B]⟩ ⟨2, ![n, 2]⟩ ⟨1, ![n]⟩)
    (wf₁ : ScatterDims.WF ⟨2, ![A₁, B]⟩ ⟨2, ![n, 2]⟩ ⟨1, ![n]⟩ [] [0, 1] [0, 1] 1)
    (wf₂ : ScatterDims.WF ⟨2, ![A₂, B]⟩ ⟨2, ![n, 2]⟩ ⟨1, ![n]⟩ [] [0, 1] [0, 1] 1)
    (h₁ : d₁ = dims A₁ B n wf₁) (h₂ : d₂ = dims A₂ B n wf₂) {φ : FTy}
    (x₁ : FVec Ideal ⟨2, ![A₁, B]⟩ φ) (x₂ : FVec Ideal ⟨2, ![A₂, B]⟩ φ)
    (idx : IVec ⟨2, ![n, 2]⟩ w) (upd : FVec Ideal ⟨1, ![n]⟩ φ)
    (k₁ : Fin A₁) (k₂ : Fin A₂) (hk : k₁.val = k₂.val) (q : Fin B) (hx : x₁ (ix2 k₁ q) = x₂ (ix2 k₂ q)) :
    Host.scatterAdd d₁ x₁ idx upd (ix2 k₁ q) = Host.scatterAdd d₂ x₂ idx upd (ix2 k₂ q) := by
  subst h₁ h₂
  exact hostScatterAdd_common_row wf₁ wf₂ x₁ x₂ idx upd k₁ k₂ hk q hx

end Idealize.ShloMosaic.PairScatter

end
-- ==== Proof.LibRowScatter.lean ====
/-
  Rows gathered and rows scattered, read at an index, at the exact (extended-real) values.

  A "row gather" takes rows of an [N, C] array at E start indices (an [E, 1] integer array): row e of the result is the
  row of the operand whose number is start index e read as a signed integer and clamped into [0, N-1]. A "vector gather"
  is the same for an [N] array. A "row scatter-add" adds row e of an [E, C] array of updates into the row of an [N, C]
  array whose number is index e read signed and NOT clamped; an update whose row number is outside [0, N) is dropped.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- The dimension numbers of a row scatter: updates [E, C] into an operand [N, C] at indices [E, 1]. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update (e, c) lands, when it lands: in row (index e read signed), column c. -/
theorem rowScatter_resultIdx?_some {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (ix2 e (0 : Fin 1))).toInt = (n.val : Int) ∧ c' = c := by
  unfold ScatterDims.resultIdx? at h
  split at h
  · rename_i hr
    have h' := Option.some.inj h
    have hs0 : (rowScatterDims N E C wf).start (ix2 e c) idx 0 = (idx (ix2 e (0 : Fin 1))).toInt := by
      unfold ScatterDims.start
      rw [dif_pos (show (0 : Fin 2) ∈ (rowScatterDims N E C wf).scatterDimsToOperandDims from List.mem_singleton.mpr rfl)]
      congr 2
      funext b; refine Fin.ext ?_
      match b with
      | ⟨0, _⟩ => rfl
      | ⟨1, _⟩ => rfl
    have hw0 : (rowScatterDims N E C wf).window (ix2 e c) 0 = 0 := by
      have hm : (0 : Fin 2) ∉ (rowScatterDims N E C wf).sKept :=
        show (0 : Fin 2) ∉ (List.finRange 2).filter (· ∉ [(0 : Fin 2)]) from by decide
      unfold ScatterDims.window
      rw [dif_neg hm]
    have hs1 : (rowScatterDims N E C wf).start (ix2 e c) idx 1 = 0 := by
      unfold ScatterDims.start
      rw [dif_neg (show (1 : Fin 2) ∉ [(0 : Fin 2)] from by decide)]
    have hw1 : (rowScatterDims N E C wf).window (ix2 e c) 1 = c.val := by
      have hm : (1 : Fin 2) ∈ (rowScatterDims N E C wf).sKept :=
        show (1 : Fin 2) ∈ (List.finRange 2).filter (· ∉ [(0 : Fin 2)]) from by decide
      unfold ScatterDims.window
      rw [dif_pos hm]
      rfl
    have h0 : ((rowScatterDims N E C wf).start (ix2 e c) idx 0
        + ((rowScatterDims N E C wf).window (ix2 e c) 0 : Nat)).toNat = n.val := congrArg Fin.val (congrFun h' 0)
    have h1 : ((rowScatterDims N E C wf).start (ix2 e c) idx 1
        + ((rowScatterDims N E C wf).window (ix2 e c) 1 : Nat)).toNat = c'.val := congrArg Fin.val (congrFun h' 1)
    have hr0 := (hr 0).1
    rw [hs0, hw0] at hr0 h0
    rw [hs1, hw1] at h1
    constructor
    · omega
    · refine Fin.ext ?_
      omega
  · exact absurd h (by simp)

/-- The dimension numbers of a row gather: rows of an operand [N, C] at start indices [E, 1] into [E, C]. -/
abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row start index e names: read signed, clamped into [0, N-1]. -/
def clampRow {E w : Nat} (N : Nat) (hN : 0 < N) (idx : IVec ⟨2, ![E, 1]⟩ w) (e : Fin E) : Fin N :=
  ⟨min (idx (ix2 e (0 : Fin 1))).toInt.toNat (N - 1), by omega⟩

variable {α : Type}

/-- The row gather at (e, c): the operand at (the clamped row of start index e, c). -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN idx e) c) := by
  unfold Host.gather
  congr 1
  funext a
  refine Fin.ext ?_
  show (rowGatherDims N E C wf).start (ix2 e c) idx a + (rowGatherDims N E C wf).batchCoord (ix2 e c) a
    + (rowGatherDims N E C wf).offCoord (ix2 e c) a = _
  rw [GatherDims.batchCoord_eq_zero _ _ _ List.not_mem_nil]
  match a with
  | ⟨0, _⟩ =>
    have hk : (0 : Fin 2) ∉ (rowGatherDims N E C wf).sKept :=
      show (0 : Fin 2) ∉ (List.finRange 2).filter (· ∉ [(0 : Fin 2)] ++ []) from by decide
    show (rowGatherDims N E C wf).start (ix2 e c) idx 0 + 0 + (rowGatherDims N E C wf).offCoord (ix2 e c) 0 = _
    rw [GatherDims.offCoord_eq_zero _ _ _ hk]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hk : (1 : Fin 2) ∈ (rowGatherDims N E C wf).sKept :=
      show (1 : Fin 2) ∈ (List.finRange 2).filter (· ∉ [(0 : Fin 2)] ++ []) from by decide
    show (rowGatherDims N E C wf).start (ix2 e c) idx 1 + 0 + (rowGatherDims N E C wf).offCoord (ix2 e c) 1 = c.val
    unfold GatherDims.start
    rw [dif_neg (show (1 : Fin 2) ∉ [(0 : Fin 2)] from by decide)]
    unfold GatherDims.offCoord
    rw [dif_pos hk]
    simp only [Nat.zero_add]
    rfl

/-- The dimension numbers of a vector gather: entries of an operand [N] at start indices [E, 1] into [E]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at e: the operand at the clamped start index e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A sum of extended reals times a nonnegative finite factor is the sum of the products. -/
theorem sum_mul_of_nonneg_ne_top {ι : Type} (s : Finset ι) (f : ι → EReal) (v : EReal) (h0 : 0 ≤ v) (ht : v ≠ ⊤) :
    (∑ j ∈ s, f j) * v = ∑ j ∈ s, f j * v := by
  classical
  induction s using Finset.induction_on with
  | empty => simp
  | insert a s ha ih =>
    rw [Finset.sum_insert ha, Finset.sum_insert ha, EReal.right_distrib_of_nonneg_of_ne_top h0 ht, ih]

/-- THE LAW OF THE SYMMETRIC NORMALISATION. Rows of H scaled by a per-row factor u BEFORE they are gathered, added up
    at their destination rows, and the sum scaled by the destination row's factor v AFTERWARDS, is the sum of the
    gathered rows each scaled by (u at its source row) * (v at its destination row), when that per-edge product p
    agrees with v on every edge that lands (hp) and v is nonnegative and finite. -/
theorem scatter_rows_scaled {N E C w : Nat} (hN : 0 < N)
    (wfS : ScatterDims.WF ⟨2, ![N, C]⟩ ⟨2, ![E, 1]⟩ ⟨2, ![E, C]⟩ [1] [0] [0] 1)
    (idxD : IVec ⟨2, ![E, 1]⟩ w)
    (updK updR : (⟨2, ![E, C]⟩ : Shape).Idx → EReal) (v : Fin N → EReal)
    (hv : ∀ n, 0 ≤ v n ∧ v n ≠ ⊤)
    (hrel : ∀ (e : Fin E) (c : Fin C) (n : Fin N), (idxD (ix2 e (0 : Fin 1))).toInt = (n.val : Int) →
      updR (ix2 e c) = updK (ix2 e c) * v n)
    (n : Fin N) (c : Fin C) :
    Ideal.hostScatterAdd (rowScatterDims N E C wfS) (fun _ => 0) idxD updK (ix2 n c) * v n
      = Ideal.hostScatterAdd (rowScatterDims N E C wfS) (fun _ => 0) idxD updR (ix2 n c) := by
  unfold Ideal.hostScatterAdd
  simp only [zero_add]
  rw [sum_mul_of_nonneg_ne_top _ _ _ (hv n).1 (hv n).2]
  refine Finset.sum_congr rfl ?_
  intro j hj
  obtain ⟨e, c0, rfl⟩ : ∃ (e : Fin E) (c0 : Fin C), j = ix2 e c0 := ⟨j 0, j 1, eq_ix2 j⟩
  have hj' := (Finset.mem_filter.mp hj).2
  obtain ⟨hi, _⟩ := rowScatter_resultIdx?_some wfS idxD e c0 n c hj'
  exact (hrel e c0 n hi).symm

end Cert.LibRowScatter

end
-- ==== Proof.AdjRead.lean ====
/-
  The scattered matrix read at an entry.

  With both index lists in range, wrapping a negative entry does nothing, a gather at an edge's node reads the
  node the list names, and an update lands at (n, i) exactly when the edge's destination is n and its source is i.
  So the matrix scattered from zeros holds at (n, i) the sum over the edges from i to n of
  (c(e) * rdo[src e]) * rdi[dst e]: the dense adjacency matrix.
-/
import proofs.«117616_j77541339562223_2_alg».proof.Proof.HostChain
import proofs.«117616_j77541339562223_2_alg».proof.Proof.Spec
import proofs.«117616_j77541339562223_2_alg».proof.Proof.LibPairScatter
import proofs.«117616_j77541339562223_2_alg».proof.Proof.LibIndexPairs
import proofs.«117616_j77541339562223_2_alg».proof.Proof.LibRowScatter
import proofs.«117616_j77541339562223_2_alg».proof.Proof.LibHostRows

set_option maxRecDepth 16384

noncomputable section

open scoped BigOperators

namespace Cert.KernelIdeal.Host

open Cert.KernelIdeal Cert.KernelIdeal.Gen Idealize.ShloMosaic Idealize.ShloMosaic.ValueIdx Cert.GraphConv

/-- A rank-1 index is its coordinate. -/
def finIdx1 (n : Nat) : Fin n ≃ (⟨1, ![n]⟩ : Shape).Idx where
  toFun := ix1
  invFun j := j 0
  left_inv _ := rfl
  right_inv j := (eq_ix1 j).symm

/-- In range, wrapping changes nothing. -/
theorem wrapIdx_apply (idx : IVec S131072 32) (h : InRange idx) (e : Fin 131072) : wrapIdx idx (ix1 e) = idx (ix1 e) :=
  IndexPairs.wrap_of_nonneg 131072 bcast_S_S131072 16384#32 idx (ix1 e) (h e).1

/-- A list as a column, read at a row. -/
theorem col_apply (v : IVec S131072 32) (e : Fin 131072) : col v (ix2 e (0 : Fin 1)) = v (ix1 e) :=
  IndexPairs.column_apply 131072 bcast_S131072_S131072x1_0 v e

/-- The first component of edge e's index pair is its destination. -/
theorem pairsK_row (src dst : IVec S131072 32) (ht : InRange dst) (e : Fin 131072) :
    pairsK src dst (ix2 e (0 : Fin 2)) = dst (ix1 e) := by
  unfold pairsK
  rw [concatenate_pair_apply_left (s₁ := S131072x1) (s₂ := S131072x1) (1 : Fin 2) _ _
    concatenates_S131072x1_S131072x1_S131072x2_d1 (ix2 e (0 : Fin 2)) rfl (ix2 e (0 : Fin 1)) (fun b => match b with
    | ⟨0, _⟩ => rfl
    | ⟨1, _⟩ => rfl)]
  rw [col_apply, wrapIdx_apply dst ht]

/-- The second component of edge e's index pair is its source. -/
theorem pairsK_col (src dst : IVec S131072 32) (hs : InRange src) (e : Fin 131072) :
    pairsK src dst (ix2 e (1 : Fin 2)) = src (ix1 e) := by
  unfold pairsK
  rw [concatenate_pair_apply_right (s₁ := S131072x1) (s₂ := S131072x1) (1 : Fin 2) _ _
    concatenates_S131072x1_S131072x1_S131072x2_d1 (ix2 e (1 : Fin 2)) rfl rfl (ix2 e (0 : Fin 1)) (fun b hb => match b, hb with
    | ⟨0, _⟩, _ => rfl
    | ⟨1, _⟩, hb => absurd rfl hb) rfl]
  rw [col_apply, wrapIdx_apply src hs]

/-- A per-node vector read at an edge's node. -/
theorem atNode_apply (v : FVec Ideal S16384 .f32) (idx : IVec S131072 32) (h : InRange idx) (e : Fin 131072) :
    atNode v idx (ix1 e) = v (ix1 (nodeOf idx e)) := by
  unfold atNode
  have hrec : gather_S16384_S131072x1_S131072_n_0_n_n_0_1_1
      = Cert.LibRowScatter.vecGatherDims 16384 131072 gather_S16384_S131072x1_S131072_n_0_n_n_0_1_1_wf := rfl
  rw [hrec, Cert.LibRowScatter.vecGather_apply (by norm_num : 0 < 16384)]
  refine congrArg (fun z : Fin 16384 => v (ix1 z)) (Fin.ext ?_)
  show min ((col (wrapIdx idx)) (ix2 e (0 : Fin 1))).toInt.toNat (16384 - 1) = min (idx (ix1 e)).toInt.toNat 16383
  rw [col_apply, wrapIdx_apply idx h]

/-- THE MATRIX: entry (n, i) is the sum of the coefficients of the edges from i to n. -/
theorem adjK_eq (w : FVec Ideal S131072 .f32) (src dst : IVec S131072 32) (hs : InRange src) (ht : InRange dst) :
    adjK w src dst = adj (cvK w src dst) (rdK src) (rdK dst) (nodeOf src) (nodeOf dst) := by
  funext a
  obtain ⟨n, i, rfl⟩ : ∃ (n i : Fin 16384), a = ix2 n i := ⟨a 0, a 1, eq_ix2 a⟩
  rw [adj_ix2]
  unfold adjK adjAt
  have hrec : scatter_S16384x16384_S131072x2_S131072_n_01_01_1
      = PairScatter.dims 16384 16384 131072 scatter_S16384x16384_S131072x2_S131072_n_01_01_1_wf := rfl
  show Ideal.hostScatterAdd scatter_S16384x16384_S131072x2_S131072_n_01_01_1
    (broadcastInDim S16384x16384 ![] bcast_S_S16384x16384 (constant (F := Ideal) S_ .f32 0x00000000#32)) (pairsK src dst)
    (vK w src dst) (ix2 n i) = _
  unfold Ideal.hostScatterAdd
  rw [Cert.LibHostRows.bcast_scalar_apply]
  have z : constant (F := Ideal) S_ .f32 0x00000000#32 ix0 = 0 := Ideal.ofBits_zero_f32
  rw [z, zero_add, Finset.sum_filter, ← Equiv.sum_comp (finIdx1 131072)]
  refine Finset.sum_congr rfl fun e _ => ?_
  have hiff : scatter_S16384x16384_S131072x2_S131072_n_01_01_1.resultIdx? (ix1 e) (pairsK src dst) = some (ix2 n i)
      ↔ (nodeOf dst e = n ∧ nodeOf src e = i) := by
    rw [hrec, PairScatter.resultIdx?_eq_some_iff]
    show (pairsK src dst (ix2 e (0 : Fin 2))).toInt = (n.val : Int) ∧ (pairsK src dst (ix2 e (1 : Fin 2))).toInt = (i.val : Int) ↔ _
    rw [pairsK_row src dst ht, pairsK_col src dst hs, ← nodeOf_val ht e, ← nodeOf_val hs e]
    constructor
    · rintro ⟨h1, h2⟩
      exact ⟨Fin.ext (by exact_mod_cast h1), Fin.ext (by exact_mod_cast h2)⟩
    · rintro ⟨rfl, rfl⟩
      exact ⟨rfl, rfl⟩
  show (if scatter_S16384x16384_S131072x2_S131072_n_01_01_1.resultIdx? (ix1 e) (pairsK src dst) = some (ix2 n i)
      then vK w src dst (ix1 e) else 0) = _
  by_cases hc : nodeOf dst e = n ∧ nodeOf src e = i
  · rw [if_pos (hiff.mpr hc), if_pos hc]
    show (cvK w src dst (ix1 e) * atNode (rdK src) src (ix1 e)) * atNode (rdK dst) dst (ix1 e) = _
    rw [atNode_apply _ src hs, atNode_apply _ dst ht]
  · rw [if_neg (fun h => hc (hiff.mp h)), if_neg hc]

end Cert.KernelIdeal.Host

end
-- ==== Proof.LibFiniteScatter.lean ====
/-
  Finiteness over the extended reals, part 5: the accumulating scatter.

  At the extended reals the host's accumulating scatter is, entry by entry, the operand's entry plus the finite
  sum of the update entries whose index lands there, whatever the dimension numbers and the indices. So it keeps
  arrays finite; and from a nonnegative operand and nonnegative updates (zeros and ones: a count) every entry of
  the result is a nonnegative real.
-/
import proofs.«117616_j77541339562223_2_alg».proof.Proof.LibFiniteDiv
import Idealize.ShloMosaic.PureOps.Contract

noncomputable section

open scoped BigOperators

namespace Cert.LibFinite

open Idealize.ShloMosaic

/-- A finite sum of nonnegative reals is a nonnegative real. -/
theorem nonnegReal_sum {ι : Type} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by rw [Finset.sum_empty, EReal.coe_zero]⟩
  | insert a s ha ih =>
    obtain ⟨x, hx, ex⟩ := h a (Finset.mem_insert_self a s)
    obtain ⟨y, hy, ey⟩ := ih fun i hi => h i (Finset.mem_insert_of_mem hi)
    exact ⟨x + y, add_nonneg hx hy, by rw [Finset.sum_insert ha, ex, ey, EReal.coe_add]⟩

variable {s si u : Shape} {w : Nat} {φ : FTy}

/-- The scatter at an index: the operand's entry plus the sum of the updates that land there. -/
theorem scatterAdd_apply (d : ScatterDims s si u) (x : FVec Ideal s φ) (idx : IVec si w) (upd : FVec Ideal u φ)
    (i : s.Idx) : Host.scatterAdd d x idx upd i = Ideal.hostScatterAdd d x idx upd i := rfl

/-- The accumulating scatter of finite updates into a finite operand is finite. -/
theorem isReal_scatterAdd (d : ScatterDims s si u) {x : FVec Ideal s φ} (idx : IVec si w) {upd : FVec Ideal u φ}
    (hx : IsReal x) (hupd : IsReal upd) : IsReal (Host.scatterAdd d x idx upd) := fun i => by
  show ∃ r : ℝ, Ideal.hostScatterAdd d x idx upd i = (r : EReal)
  unfold Ideal.hostScatterAdd
  exact real_add (hx i) (real_sum _ _ fun j _ => hupd j)

/-- The accumulating scatter of nonnegative updates into a nonnegative operand is nonnegative. -/
theorem isNonnegReal_scatterAdd (d : ScatterDims s si u) {x : FVec Ideal s φ} (idx : IVec si w)
    {upd : FVec Ideal u φ} (hx : IsNonnegReal x) (hupd : IsNonnegReal upd) :
    IsNonnegReal (Host.scatterAdd d x idx upd) := fun i => by
  show ∃ r : ℝ, 0 ≤ r ∧ Ideal.hostScatterAdd d x idx upd i = (r : EReal)
  unfold Ideal.hostScatterAdd
  obtain ⟨a, ha, ea⟩ := hx i
  obtain ⟨b, hb, eb⟩ := nonnegReal_sum _ _ fun j _ => hupd j
  exact ⟨a + b, add_nonneg ha hb, by rw [ea, eb, EReal.coe_add]⟩

/-- Counting: ones scattered into zeros, then the maximum with ones, is a positive array (every entry a real
    at least 1, in particular not zero), whatever the shapes of the broadcasts that make the zeros and the ones. -/
theorem isPosReal_max_count (d : ScatterDims s si u) (idx : IVec si w) {zeros ones' : FVec Ideal s φ}
    {ones : FVec Ideal u φ} (hz : IsNonnegReal zeros) (ho : IsNonnegReal ones) (ho' : IsPosReal ones') :
    IsPosReal (maximumf (Host.scatterAdd d zeros idx ones) ones') :=
  isPosReal_maximumf_right (isNonnegReal_scatterAdd d idx hz ho).isReal ho'

end Cert.LibFinite

end
-- ==== Proof.Stages.lean ====
/-
  The per-edge coefficient and the two degree factors are computed by the same operations in both programs, so
  the kernel's stages ARE the reference's stages; and the degree factors are real numbers whatever the index
  lists are: a degree clipped below at 1 is a real number that is at least 1 (a finite sum of ones, or 1),
  hence positive, and the reciprocal square root of a positive real is a real.
-/
import proofs.«117616_j77541339562223_2_alg».proof.Proof.HostChain
import proofs.«117616_j77541339562223_2_alg».proof.Proof.Gen.ReferenceIdeal.Read
import proofs.«117616_j77541339562223_2_alg».proof.Proof.LibFiniteScatter
import proofs.«117616_j77541339562223_2_alg».proof.Proof.LibFiniteLayout

set_option maxRecDepth 16384

noncomputable section

namespace Cert.KernelIdeal.Host

open Cert.KernelIdeal Cert.KernelIdeal.Gen Idealize.ShloMosaic Cert.LibFinite

/-- The kernel's per-edge coefficient is the reference's. -/
theorem cvK_eq (w : FVec Ideal S131072 .f32) (src dst : IVec S131072 32) :
    cvK w src dst = Cert.ReferenceIdeal.Read.val_main_v23 (F := Ideal) w src dst := rfl

/-- The kernel's out-degree factor is the reference's. -/
theorem rdK_eq_out (src : IVec S131072 32) : rdK src = Cert.ReferenceIdeal.Read.val_main_v32 (F := Ideal) src := rfl

/-- The kernel's in-degree factor is the reference's. -/
theorem rdK_eq_in (dst : IVec S131072 32) : rdK dst = Cert.ReferenceIdeal.Read.val_main_v49 (F := Ideal) dst := rfl

/-- A degree factor is a real number, for any index list. -/
theorem isReal_rdK (idx : IVec S131072 32) : IsReal (rdK idx) := by
  unfold rdK
  have hone : IsPosReal (broadcastInDim S16384 ![] bcast_S_S16384 (constant (F := Ideal) S_ .f32 0x3F800000#32)) :=
    isPosReal_broadcastInDim _ _ _ (isPosReal_constant_one S_)
  have hcnt : IsReal (segSum idx (broadcastInDim S131072 ![] bcast_S_S131072 (constant (F := Ideal) S_ .f32 0x3F800000#32))) := by
    unfold segSum
    exact isReal_scatterAdd _ _ (isReal_broadcastInDim _ _ _ (isReal_constant_zero S_))
      (isReal_broadcastInDim _ _ _ (isReal_constant_one S_))
  refine (isPosReal_hostRsqrt ?_).isReal
  intro i
  obtain ⟨r, hr, e⟩ := isPosReal_maximumf_right hcnt hone i
  refine ⟨r, hr, ?_⟩
  rw [← e]
  exact max_comm _ _

end Cert.KernelIdeal.Host

end
-- ==== Proof.Algebra.lean ====
/-
  Why the dense-adjacency form and the aggregate-then-scale form agree.

  Fix a destination node n and a feature column d. With y(i) = x(i, d):
    ∑ i, A(n, i) * y(i)  where  A(n, i) = ∑ over edges e from i to n of (c e * o (s e)) * r (t e)
  is, after distributing y(i) into the inner sum, exchanging the two sums and keeping for each edge the one
  node i = s e that it leaves from,
    ∑ over edges e into n of c e * o (s e) * r n * y (s e),
  which is (∑ over edges e into n of (y (s e) * o (s e)) * c e) * r n. Distributing needs every term to be a
  real number: on the extended reals (a + b) * y = a * y + b * y fails when a and b are infinities of opposite
  sign. So the statement is made for arrays all of whose entries are reals, and proved on the reals.
-/
import proofs.«117616_j77541339562223_2_alg».proof.Proof.Spec

noncomputable section

open scoped BigOperators

namespace Cert.GraphConv

open Idealize.ShloMosaic Idealize.ShloMosaic.ValueIdx Cert.LibFinite

/-- The regrouping on the reals: edges grouped by source and destination against edges grouped by destination. -/
theorem real_regroup {ι ε : Type} [Fintype ι] [Fintype ε] [DecidableEq ι]
    (s t : ε → ι) (c : ε → ℝ) (o r y : ι → ℝ) (n : ι) :
    ∑ i, (∑ e, if t e = n ∧ s e = i then (c e * o (s e)) * r (t e) else 0) * y i
      = (∑ e, if t e = n then (y (s e) * o (s e)) * c e else 0) * r n := by
  simp_rw [Finset.sum_mul]
  rw [Finset.sum_comm]
  refine Finset.sum_congr rfl fun e _ => ?_
  by_cases h : t e = n
  · simp only [h, true_and, if_true]
    rw [Finset.sum_eq_single (s e)]
    · simp only [if_true]; ring
    · intro i _ hi
      rw [if_neg (fun h' => hi h'.symm), zero_mul]
    · intro h'; exact absurd (Finset.mem_univ _) h'
  · simp only [h, false_and, if_false, zero_mul, Finset.sum_const_zero]

/-- A real sum, read in the extended reals, is the sum of its terms read there. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A guarded real term read in the extended reals. -/
theorem coe_ite (p : Prop) [Decidable p] (a : ℝ) : ((if p then a else 0 : ℝ) : EReal) = if p then (a : EReal) else 0 := by
  split_ifs <;> simp

/-- THE LAW: for finite features, coefficients and node factors, a row of the dense adjacency matrix against a
    feature column is the scaled aggregate of that column over the edges into the node. -/
theorem adj_row_eq (x : SND.Idx → EReal) (cv : SE.Idx → EReal) (ro ri : SN.Idx → EReal)
    (s t : Fin 131072 → Fin 16384) (hx : IsReal x) (hcv : IsReal cv) (hro : IsReal ro) (hri : IsReal ri)
    (n : Fin 16384) (d : Fin 1024) :
    ∑ i : Fin 16384, adj cv ro ri s t (ix2 n i) * x (ix2 i d)
      = (∑ e : Fin 131072, if t e = n then (x (ix2 (s e) d) * ro (ix1 (s e))) * cv (ix1 e) else 0) * ri (ix1 n) := by
  choose xr hxr using hx
  choose cr hcr using hcv
  choose orr hor using hro
  choose rr hrr using hri
  have key := real_regroup s t (fun e => cr (ix1 e)) (fun i => orr (ix1 i)) (fun i => rr (ix1 i))
    (fun i => xr (ix2 i d)) n
  have hA : ∀ i : Fin 16384, adj cv ro ri s t (ix2 n i)
      = ((∑ e : Fin 131072, if t e = n ∧ s e = i then (cr (ix1 e) * orr (ix1 (s e))) * rr (ix1 (t e)) else 0 : ℝ) : EReal) := by
    intro i
    rw [adj_ix2, coe_sum]
    unfold adjAt
    refine Finset.sum_congr rfl fun e _ => ?_
    rw [coe_ite, EReal.coe_mul, EReal.coe_mul, hcr, hor, hrr]
  have hL : ∑ i : Fin 16384, adj cv ro ri s t (ix2 n i) * x (ix2 i d)
      = ((∑ i : Fin 16384, (∑ e : Fin 131072, if t e = n ∧ s e = i then (cr (ix1 e) * orr (ix1 (s e))) * rr (ix1 (t e)) else 0)
          * xr (ix2 i d) : ℝ) : EReal) := by
    rw [coe_sum]
    refine Finset.sum_congr rfl fun i _ => ?_
    rw [hA i, hxr, EReal.coe_mul]
  have hS : (∑ e : Fin 131072, if t e = n then (x (ix2 (s e) d) * ro (ix1 (s e))) * cv (ix1 e) else 0)
      = ((∑ e : Fin 131072, if t e = n then (xr (ix2 (s e) d) * orr (ix1 (s e))) * cr (ix1 e) else 0 : ℝ) : EReal) := by
    rw [coe_sum]
    refine Finset.sum_congr rfl fun e _ => ?_
    rw [coe_ite, EReal.coe_mul, EReal.coe_mul, hxr, hor, hcr]
  have hR : (∑ e : Fin 131072, if t e = n then (x (ix2 (s e) d) * ro (ix1 (s e))) * cv (ix1 e) else 0) * ri (ix1 n)
      = (((∑ e : Fin 131072, if t e = n then (xr (ix2 (s e) d) * orr (ix1 (s e))) * cr (ix1 e) else 0) * rr (ix1 n) : ℝ) : EReal) := by
    rw [hS, hrr, EReal.coe_mul]
  rw [hL, hR, key]

/-- Hence the two results agree, entry by entry, whatever the weight and the bias are. -/
theorem kerOut_adj_eq_refOut (x : SND.Idx → EReal) (cv : SE.Idx → EReal) (ro ri : SN.Idx → EReal)
    (W : SDD.Idx → EReal) (b : SD.Idx → EReal) (B : S1D.Idx → EReal) (s t : Fin 131072 → Fin 16384)
    (hB : ∀ k : Fin 1024, B (ix2 (0 : Fin 1) k) = b (ix1 k))
    (hx : IsReal x) (hcv : IsReal cv) (hro : IsReal ro) (hri : IsReal ri) :
    kerOut (adj cv ro ri s t) x W B = refOut x cv ro ri W b s t := by
  funext j
  obtain ⟨n, k, rfl⟩ : ∃ (n : Fin 16384) (k : Fin 1024), j = ix2 n k := ⟨j 0, j 1, eq_ix2 j⟩
  rw [kerOut_ix2, refOut_ix2]
  unfold kerOutAt refOutAt
  rw [hB k]
  refine congrArg (fun z : EReal => max (z + b (ix1 k)) 0) (Finset.sum_congr rfl fun d _ => ?_)
  rw [adj_row_eq x cv ro ri s t hx hcv hro hri n d]

end Cert.GraphConv

end
-- ==== Proof.RefRead.lean ====
/-
  The reference program read at an index.

  The reference scales the rows of the feature matrix by the out-factor of their node, gathers for every edge the row
  of its source node, scales it by the edge's coefficient, adds the rows up at the edge's destination node, scales
  the resulting row by the in-factor of its node, and applies the dense layer, the bias and the clamp at zero.
  When every entry of the source list and of the destination list is a node number, the wrap-around of negative
  entries and the clamp of the gather are the identity, and every update of the scatter lands; the result at
  (n, k) is then the explicit double sum Cert.GraphConv.refOutAt.
-/
import proofs.«117616_j77541339562223_2_alg».proof.Proof.Gen.ReferenceIdeal.Read
import proofs.«117616_j77541339562223_2_alg».proof.Proof.Spec
import proofs.«117616_j77541339562223_2_alg».proof.Proof.LibRowScatter
import Idealize.ShloMosaic.PureOps.Ideal.Laws
import Idealize.ShloMosaic.Lib.ValueIdx
import Idealize.ShloMosaic.Lib.Affine

noncomputable section

open scoped BigOperators

namespace Cert.RefRead

open Idealize.ShloMosaic Idealize.ShloMosaic.ValueIdx Cert.LibRowScatter

/-! ## Where the updates of a row scatter land -/

/-- Update (e, c) of a row scatter lands at (n, c') exactly when index e, read signed, is n and c' = c. -/
theorem rowScatter_resultIdx?_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatterDims N E C wf).resultIdx? (ix2 e c) idx = some (ix2 n c')
      ↔ (idx (ix2 e (0 : Fin 1))).toInt = (n.val : Int) ∧ c' = c := by
  constructor
  · exact rowScatter_resultIdx?_some wf idx e c n c'
  · rintro ⟨hi, rfl⟩
    have hs0 : (rowScatterDims N E C wf).start (ix2 e c') idx 0 = (idx (ix2 e (0 : Fin 1))).toInt := by
      unfold ScatterDims.start
      rw [dif_pos (show (0 : Fin 2) ∈ (rowScatterDims N E C wf).scatterDimsToOperandDims from List.mem_singleton.mpr rfl)]
      congr 2
      funext b; refine Fin.ext ?_
      match b with
      | ⟨0, _⟩ => rfl
      | ⟨1, _⟩ => rfl
    have hw0 : (rowScatterDims N E C wf).window (ix2 e c') 0 = 0 := by
      have hm : (0 : Fin 2) ∉ (rowScatterDims N E C wf).sKept :=
        show (0 : Fin 2) ∉ (List.finRange 2).filter (· ∉ [(0 : Fin 2)]) from by decide
      unfold ScatterDims.window
      rw [dif_neg hm]
    have hs1 : (rowScatterDims N E C wf).start (ix2 e c') idx 1 = 0 := by
      unfold ScatterDims.start
      rw [dif_neg (show (1 : Fin 2) ∉ [(0 : Fin 2)] from by decide)]
    have hw1 : (rowScatterDims N E C wf).window (ix2 e c') 1 = c'.val := by
      have hm : (1 : Fin 2) ∈ (rowScatterDims N E C wf).sKept :=
        show (1 : Fin 2) ∈ (List.finRange 2).filter (· ∉ [(0 : Fin 2)]) from by decide
      unfold ScatterDims.window
      rw [dif_pos hm]
      rfl
    have hn := n.isLt
    have hc := c'.isLt
    have hall : ∀ a, 0 ≤ (rowScatterDims N E C wf).start (ix2 e c') idx a + ((rowScatterDims N E C wf).window (ix2 e c') a : Nat)
        ∧ (rowScatterDims N E C wf).start (ix2 e c') idx a + ((rowScatterDims N E C wf).window (ix2 e c') a : Nat)
          < ((⟨2, ![N, C]⟩ : Shape).size a : Nat) := by
      intro a
      match a with
      | ⟨0, _⟩ =>
        show 0 ≤ (rowScatterDims N E C wf).start (ix2 e c') idx 0 + ((rowScatterDims N E C wf).window (ix2 e c') 0 : Nat)
          ∧ (rowScatterDims N E C wf).start (ix2 e c') idx 0 + ((rowScatterDims N E C wf).window (ix2 e c') 0 : Nat) < (N : Nat)
        rw [hs0, hw0, hi]
        omega
      | ⟨1, _⟩ =>
        show 0 ≤ (rowScatterDims N E C wf).start (ix2 e c') idx 1 + ((rowScatterDims N E C wf).window (ix2 e c') 1 : Nat)
          ∧ (rowScatterDims N E C wf).start (ix2 e c') idx 1 + ((rowScatterDims N E C wf).window (ix2 e c') 1 : Nat) < (C : Nat)
        rw [hs1, hw1]
        omega
    unfold ScatterDims.resultIdx?
    rw [dif_pos hall]
    congr 1
    funext a
    refine Fin.ext ?_
    match a with
    | ⟨0, _⟩ =>
      show ((rowScatterDims N E C wf).start (ix2 e c') idx 0 + ((rowScatterDims N E C wf).window (ix2 e c') 0 : Nat)).toNat = n.val
      rw [hs0, hw0, hi]
      omega
    | ⟨1, _⟩ =>
      show ((rowScatterDims N E C wf).start (ix2 e c') idx 1 + ((rowScatterDims N E C wf).window (ix2 e c') 1 : Nat)).toNat = c'.val
      rw [hs1, hw1]
      omega

/-- A row scatter-add read at (n, c): the operand there plus the updates (e, c) of the edges e whose index is n. The
    node an index names is given as a function `node` whose value at e is index e read signed. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (node : Fin E → Fin N)
    (hnode : ∀ e, (((node e).val : Nat) : Int) = (idx (ix2 e (0 : Fin 1))).toInt) (n : Fin N) (c : Fin C) :
    Ideal.hostScatterAdd (rowScatterDims N E C wf) x idx upd (ix2 n c)
      = x (ix2 n c) + ∑ e : Fin E, if node e = n then upd (ix2 e c) else 0 := by
  unfold Ideal.hostScatterAdd
  congr 1
  rw [Finset.sum_filter, sum_idx2]
  refine Finset.sum_congr rfl fun e _ => ?_
  have hiff : ∀ c' : Fin C, (rowScatterDims N E C wf).resultIdx? (ix2 e c') idx = some (ix2 n c) ↔ (node e = n ∧ c = c') := by
    intro c'
    rw [rowScatter_resultIdx?_iff wf idx e c' n c, ← hnode e]
    constructor
    · rintro ⟨h1, h2⟩
      exact ⟨Fin.ext (by omega), h2⟩
    · rintro ⟨h1, h2⟩
      exact ⟨by rw [h1], h2⟩
  simp only [hiff]
  by_cases hn : node e = n
  · simp only [hn, true_and, if_true]
    rw [Finset.sum_ite_eq]
    simp only [Finset.mem_univ, if_true]
  · simp only [hn, false_and, if_false]
    exact Finset.sum_const_zero

/-! ## The reference's own gather and scatter -/

open Cert.ReferenceIdeal Cert.ReferenceIdeal.Gen Cert.ReferenceIdeal.Read Cert.GraphConv

/-- The reference's gather is a row gather: rows of a [16384, 1024] array at 131072 start indices. -/
theorem gatherDims_eq :
    gather_S16384x1024_S131072x1_S131072x1024_1_0_n_n_0_1_11024
      = rowGatherDims 16384 131072 1024 gather_S16384x1024_S131072x1_S131072x1024_1_0_n_n_0_1_11024_wf := rfl

/-- The reference's scatter is a row scatter: 131072 rows of length 1024 into a [16384, 1024] array. -/
theorem scatterDims_eq :
    scatter_S16384x1024_S131072x1_S131072x1024_1_0_0_1
      = rowScatterDims 16384 131072 1024 scatter_S16384x1024_S131072x1_S131072x1024_1_0_0_1_wf := rfl

/-- Under InRange the source list with its negative entries wrapped is the source list: entry e of the start indices
    of the gather is entry e of the list. -/
theorem v41_apply (x4 : IVec SE 32) (hs : InRange x4) (e : Fin 131072) :
    val_main_v41 (F := Ideal) x4 (ix2 e (0 : Fin 1)) = x4 (ix1 e) := by
  rw [val_main_v41_apply]
  have hi : idx_main_v41 (ix2 e (0 : Fin 1)) = ix1 e := funext fun a => Fin.ext (by match a with | ⟨0, _⟩ => rfl)
  rw [hi, val_main_v40_apply, val_main_v37_apply, val_main_v36_apply, val_main_c_9_apply]
  have hne : ¬ IntOp.cmpi .slt (x4 (ix1 e)) 0#32 = 1#1 := fun hh => by
    have h1 := IntOp.cmpi_slt.1 hh
    rw [BitVec.toInt_zero] at h1
    have h2 := (hs e).1
    omega
  exact if_neg hne

/-- Entry e of the indices of the scatter is entry e of the destination list. -/
theorem v47_apply (x5 : IVec SE 32) (e : Fin 131072) :
    val_main_v47 (F := Ideal) x5 (ix2 e (0 : Fin 1)) = x5 (ix1 e) := by
  rw [val_main_v47_apply]
  exact congrArg x5 (funext fun a => Fin.ext (by match a with | ⟨0, _⟩ => rfl))

/-- The gathered row of edge e is the scaled row of its source node: the clamp of the gather is the identity on a
    node number. -/
theorem v42_apply (x0 : SND.Idx → EReal) (x4 : IVec SE 32) (hs : InRange x4) (e : Fin 131072) (d : Fin 1024) :
    val_main_v42 (F := Ideal) x0 x4 (ix2 e d)
      = x0 (ix2 (nodeOf x4 e) d) * val_main_v32 (F := Ideal) x4 (ix1 (nodeOf x4 e)) := by
  have hN : 0 < 16384 := by norm_num
  have hclamp : clampRow 16384 hN (val_main_v41 (F := Ideal) x4) e = nodeOf x4 e := by
    refine Fin.ext ?_
    show min ((val_main_v41 (F := Ideal) x4 (ix2 e (0 : Fin 1))).toInt.toNat) (16384 - 1) = min (x4 (ix1 e)).toInt.toNat 16383
    rw [v41_apply x4 hs e]
  unfold val_main_v42
  rw [gatherDims_eq, rowGather_apply hN, hclamp, val_main_v35_apply, val_main_v34_apply, val_main_v33_apply]
  have h1 : idx_main_v33 (idx_main_v34 (ix2 (nodeOf x4 e) d)) = ix1 (nodeOf x4 e) :=
    funext fun a => Fin.ext (by match a with | ⟨0, _⟩ => rfl)
  rw [h1]
  rfl

/-- The coefficient of edge e stretched over the columns. -/
theorem v44_apply (x1 : SE.Idx → EReal) (x4 x5 : IVec SE 32) (e : Fin 131072) (d : Fin 1024) :
    val_main_v44 (F := Ideal) x1 x4 x5 (ix2 e d) = val_main_v23 (F := Ideal) x1 x4 x5 (ix1 e) := by
  rw [val_main_v44_apply, val_main_v43_apply]
  exact congrArg _ (funext fun a => Fin.ext (by match a with | ⟨0, _⟩ => rfl))

/-- The update row of edge e: the scaled row of its source node times the edge's coefficient. -/
theorem v45_apply (x0 : SND.Idx → EReal) (x1 : SE.Idx → EReal) (x4 x5 : IVec SE 32) (hs : InRange x4)
    (e : Fin 131072) (d : Fin 1024) :
    val_main_v45 (F := Ideal) x0 x1 x4 x5 (ix2 e d)
      = (x0 (ix2 (nodeOf x4 e) d) * val_main_v32 (F := Ideal) x4 (ix1 (nodeOf x4 e)))
          * val_main_v23 (F := Ideal) x1 x4 x5 (ix1 e) := by
  rw [val_main_v45_apply, v42_apply x0 x4 hs, v44_apply, Ideal.mulf_def]

/-- The scatter starts from zeros. -/
theorem v46_apply (n : Fin 16384) (d : Fin 1024) : val_main_v46 (F := Ideal) (ix2 n d) = 0 := by
  rw [val_main_v46_apply, val_main_cst_11_apply]
  exact Ideal.ofBits_zero_f32

/-- Under InRange the node the destination list names at e is entry e of the indices of the scatter, read signed. -/
theorem nodeOf_v47 (x5 : IVec SE 32) (ht : InRange x5) (e : Fin 131072) :
    (((nodeOf x5 e).val : Nat) : Int) = (val_main_v47 (F := Ideal) x5 (ix2 e (0 : Fin 1))).toInt := by
  rw [v47_apply]
  exact nodeOf_val ht e

/-- The aggregate as a row scatter-add of the update rows into zeros at the destination list. -/
theorem v48_eq (x0 : SND.Idx → EReal) (x1 : SE.Idx → EReal) (x4 x5 : IVec SE 32) :
    val_main_v48 (F := Ideal) x0 x1 x4 x5
      = Ideal.hostScatterAdd (rowScatterDims 16384 131072 1024 scatter_S16384x1024_S131072x1_S131072x1024_1_0_0_1_wf)
          (val_main_v46 (F := Ideal)) (val_main_v47 (F := Ideal) x5) (val_main_v45 (F := Ideal) x0 x1 x4 x5) := by
  unfold val_main_v48 Host.scatterAdd
  rw [Ideal.hostScatterAdd_def, scatterDims_eq]

/-- The aggregate at (n, d): the update rows of the edges into n, added up (under InRange every update lands, in
    the row its destination entry names). -/
theorem v48_apply (x0 : SND.Idx → EReal) (x1 : SE.Idx → EReal) (x4 x5 : IVec SE 32) (ht : InRange x5)
    (n : Fin 16384) (d : Fin 1024) :
    val_main_v48 (F := Ideal) x0 x1 x4 x5 (ix2 n d)
      = ∑ e : Fin 131072, if nodeOf x5 e = n then val_main_v45 (F := Ideal) x0 x1 x4 x5 (ix2 e d) else 0 := by
  rw [v48_eq, rowScatterAdd_apply _ _ _ _ (nodeOf x5) (nodeOf_v47 x5 ht), v46_apply, zero_add]

/-- The in-factor of node n stretched over the columns. -/
theorem v51_apply (x5 : IVec SE 32) (n : Fin 16384) (d : Fin 1024) :
    val_main_v51 (F := Ideal) x5 (ix2 n d) = val_main_v49 (F := Ideal) x5 (ix1 n) := by
  rw [val_main_v51_apply, val_main_v50_apply]
  exact congrArg _ (funext fun a => Fin.ext (by match a with | ⟨0, _⟩ => rfl))

/-- The bias stretched down the rows. -/
theorem v55_apply (x3 : SD.Idx → EReal) (n : Fin 16384) (k : Fin 1024) :
    val_main_v55 (F := Ideal) x3 (ix2 n k) = x3 (ix1 k) := by
  rw [val_main_v55_apply, val_main_v54_apply]
  exact congrArg x3 (funext fun a => Fin.ext (by match a with | ⟨0, _⟩ => rfl))

/-! ## The reference is the explicit double sum -/

/-- With both index lists in range, the reference's result is refOut of the feature matrix, the per-edge
    coefficient, the two per-node factors, the weight, the bias and the two lists read as node numbers. -/
theorem ref_eq (x0 : SND.Idx → EReal) (x1 : SE.Idx → EReal) (x2 : SDD.Idx → EReal) (x3 : SD.Idx → EReal)
    (x4 x5 : IVec SE 32) (hs : InRange x4) (ht : InRange x5) :
    val_main_v57 (F := Ideal) x0 x1 x2 x3 x4 x5
      = refOut x0 (val_main_v23 (F := Ideal) x1 x4 x5) (val_main_v32 (F := Ideal) x4) (val_main_v49 (F := Ideal) x5)
          x2 x3 (nodeOf x4) (nodeOf x5) := by
  funext j
  obtain ⟨n, k, rfl⟩ : ∃ (n : Fin 16384) (k : Fin 1024), j = ix2 n k := ⟨j 0, j 1, eq_ix2 j⟩
  rw [refOut_ix2]
  unfold refOutAt
  rw [val_main_v57_apply, val_main_v56_apply, val_main_v53_apply, v55_apply, val_main_call2_v0_apply,
    val_main_call2_cst_apply]
  rw [Ideal.maximumf_def, Ideal.addf_def]
  have h0 : FloatOps.ofBits (F := Ideal) .f32 0x00000000#32 = 0 := Ideal.ofBits_zero_f32
  rw [h0]
  refine congrArg (fun t => max (t + x3 (ix1 k)) 0) (Finset.sum_congr rfl fun d _ => ?_)
  have hl : lidx_main_v53 (ix2 n k) d = ix2 n d :=
    funext fun a => Fin.ext (by match a with | ⟨0, _⟩ => rfl | ⟨1, _⟩ => rfl)
  have hr : ridx_main_v53 (ix2 n k) d = ix2 d k :=
    funext fun a => Fin.ext (by match a with | ⟨0, _⟩ => rfl | ⟨1, _⟩ => rfl)
  rw [hl, hr, val_main_v52_apply, v48_apply x0 x1 x4 x5 ht, v51_apply, Ideal.mulf_def]
  refine congrArg (fun t => (t * val_main_v49 (F := Ideal) x5 (ix1 n)) * x2 (ix2 d k)) (Finset.sum_congr rfl fun e _ => ?_)
  rw [v45_apply x0 x1 x4 x5 hs]

end Cert.RefRead

end
-- ==== Proof.Bridge.lean ====
/-
  The kernel's result, as a function of its four window arrays, is the reference's last stage.

  Window 0 holds the dense adjacency matrix of the per-edge coefficients (c(e) * rdo[src e]) * rdi[dst e];
  windows 1 and 2 hold x and W; window 3 holds b as one row. So the kernel's max((A · x) · W + b, 0) is the
  dense-adjacency form of the result; the reference's last stage is the aggregate-then-scale form over the same
  coefficient and degree factors; and the two forms agree because x, the coefficients and the degree factors are
  real numbers (the precondition gives the first two, the third holds always).
-/
import proofs.«117616_j77541339562223_2_alg».proof.Proof.AdjRead
import proofs.«117616_j77541339562223_2_alg».proof.Proof.Stages
import proofs.«117616_j77541339562223_2_alg».proof.Proof.Algebra
import proofs.«117616_j77541339562223_2_alg».proof.Proof.RefRead
import proofs.«117616_j77541339562223_2_alg».proof.Proof.LibRecast

set_option maxRecDepth 16384

noncomputable section

namespace Cert.Bridge

open Cert.KernelIdeal Cert.KernelIdeal.Gen Cert.KernelIdeal.Host Idealize.ShloMosaic Idealize.ShloMosaic.ValueIdx
  Idealize.ShloMosaic.TcCoe Idealize.SL.Sem Cert.GraphConv Cert.LibFinite

variable (m : (ℓ : Loc nD τ sig) → Buf (Elt Ideal) ℓ)

/-- On one device: the dense-adjacency result over the window arrays is the reference's result of the arguments. -/
theorem windows_eq (c : Dev nD)
    (hx0 : IsReal (m ((c : Thread nD τ).loc main_arg0) : SND.Idx → EReal))
    (hs : InRange (m ((c : Thread nD τ).loc main_arg4))) (ht : InRange (m ((c : Thread nD τ).loc main_arg5)))
    (hcv : IsReal (Cert.ReferenceIdeal.Read.val_main_v23 (F := Ideal) (m ((c : Thread nD τ).loc main_arg1))
      (m ((c : Thread nD τ).loc main_arg4)) (m ((c : Thread nD τ).loc main_arg5)))) :
    kerOut (V m c main_v65) (V m c main_v66) (V m c main_v67) (V m c main_v68)
      = Cert.ReferenceIdeal.Read.val_main_v57 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  rw [V_v65 m c, V_v66 m c, V_v67 m c, V_v68 m c, Cert.RefRead.ref_eq _ _ _ _ _ _ hs ht, adjK_eq _ _ _ hs ht, cvK_eq,
    rdK_eq_out, rdK_eq_in]
  refine kerOut_adj_eq_refOut _ _ _ _ _ _ _ _ _ (fun k => ?_) hx0 hcv ?_ ?_
  · exact Cert.LibRecast.as_row_apply _ shapeCasts_S1024_S1x1024 k
  · rw [← rdK_eq_out]; exact isReal_rdK _
  · rw [← rdK_eq_in]; exact isReal_rdK _

end Cert.Bridge

end
-- ==== Proof.lean ====
/-
  The five claims about a graph-convolution layer computed two ways.

  The layer: with edge weights w, source and destination lists src and dst over 16384 nodes, features x, a weight
  W and a bias b, let c(e) = w(e) * rsqrt(w_out[src e] * w_in[dst e]) (w_out, w_in the weight sums per source and
  per destination node) and rdo, rdi the reciprocal square roots of the out- and in-degrees clipped below at 1.
  The reference gathers the rows x[src e] * rdo[src e], scales row e by c(e), adds the rows up at their destination
  nodes, scales row n by rdi[n], and returns max(agg · W + b, 0). The kernel scatters the per-edge numbers
  (c(e) * rdo[src e]) * rdi[dst e] into a dense [16384, 16384] adjacency matrix A on the host and computes
  max((A · x) · W + b, 0) block by block: a grid of 32 row blocks by 8 column blocks of A, the product A · x
  accumulated over the 8 column blocks in a scratch block, the second product, the bias and the clamp at the last
  of the 8.

  * The three frame claims are the generated frame runs (the reference's is its run with the result dropped).
  * The idealization rewrote nothing, so the preservation claim is trivial.
  * The equality of the two results on the extended reals: the kernel's run leaves max((A · x) · W + b, 0) of its
    four window arrays (KernelValue: the scratch fold over the 8 blocks is the whole row-by-column sum, by
    associativity and commutativity alone); the window arrays are A, x, W and b as one row (HostChain, AdjRead,
    with both index lists in range); the reference's last stage is the aggregate-then-scale double sum (RefRead);
    and the two double sums agree because x, c, rdo and rdi are real numbers, so that multiplication distributes
    (Algebra). That x and c are real, and that the lists are in range, is what the precondition says (PreFacts);
    rdo and rdi are real for any lists (Stages). The weight and the bias enter both sides alike and need nothing.
-/
import proofs.«117616_j77541339562223_2_alg».proof.Defs
import proofs.«117616_j77541339562223_2_alg».proof.Proof.Gen.Kernel
import proofs.«117616_j77541339562223_2_alg».proof.Proof.Gen.Kernel.Skeleton
import proofs.«117616_j77541339562223_2_alg».proof.Proof.Gen.Kernel.Launch
import proofs.«117616_j77541339562223_2_alg».proof.Proof.Gen.Kernel.Points
import proofs.«117616_j77541339562223_2_alg».proof.Proof.Gen.Kernel.Frame
import proofs.«117616_j77541339562223_2_alg».proof.Proof.Gen.KernelIdeal
import proofs.«117616_j77541339562223_2_alg».proof.Proof.Gen.KernelIdeal.Skeleton
import proofs.«117616_j77541339562223_2_alg».proof.Proof.Gen.KernelIdeal.Launch
import proofs.«117616_j77541339562223_2_alg».proof.Proof.Gen.KernelIdeal.Points
import proofs.«117616_j77541339562223_2_alg».proof.Proof.Gen.KernelIdeal.Frame
import proofs.«117616_j77541339562223_2_alg».proof.Proof.Gen.ReferenceIdeal
import proofs.«117616_j77541339562223_2_alg».proof.Proof.Gen.Pre_finite_inputs
import proofs.«117616_j77541339562223_2_alg».proof.Proof.Gen.KernelIdeal.Value
import proofs.«117616_j77541339562223_2_alg».proof.Proof.Gen.ReferenceIdeal.Run
import proofs.«117616_j77541339562223_2_alg».proof.Proof.Gen.ReferenceIdeal.Read
import proofs.«117616_j77541339562223_2_alg».proof.Proof.KernelValue
import proofs.«117616_j77541339562223_2_alg».proof.Proof.PreFacts
import proofs.«117616_j77541339562223_2_alg».proof.Proof.Bridge
import Idealize.ShloMosaic.Adequacy
import Idealize.ShloMosaic.Init

set_option maxRecDepth 16384

noncomputable section

namespace Cert.Proof

open Idealize.ShloMosaic Idealize.SL.Sem

/-- The word-level kernel runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments and satisfy the precondition, both idealized programs end with
    the same [16384, 1024] array of extended reals: the dense-adjacency form of the layer over the kernel's window
    arrays, which is the reference's aggregate-then-scale form of the arguments. -/
theorem algebraic : Cert.algebraic_KernelIdeal_ReferenceIdeal := by
  intro m ρ m' ρ' hpre hagree
  refine ⟨fun c => Cert.GraphConv.kerOut (Cert.KernelIdeal.Gen.V m c Cert.KernelIdeal.main_v65)
      (Cert.KernelIdeal.Gen.V m c Cert.KernelIdeal.main_v66) (Cert.KernelIdeal.Gen.V m c Cert.KernelIdeal.main_v67)
      (Cert.KernelIdeal.Gen.V m c Cert.KernelIdeal.main_v68), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hx0, hs, ht, hcv⟩ := Cert.PreFacts.of_pre _ _ _ _ _ _ (hpre c)
  rw [(hagree c).1, (hagree c).2.1, (hagree c).2.2.1, (hagree c).2.2.2.1, (hagree c).2.2.2.2.1, (hagree c).2.2.2.2.2]
  exact (Cert.Bridge.windows_eq m c hx0 hs ht hcv).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
